-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S50000x512 .f32) (main_arg1 : FVec F S50000x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S16x512 : Shape := ⟨2, ![16, 512]⟩
abbrev S1000x512 : Shape := ⟨2, ![1000, 512]⟩
abbrev S8x512 : Shape := ⟨2, ![8, 512]⟩
abbrev S_ : Shape := ⟨0, ![]⟩
abbrev S1 : Shape := ⟨1, ![1]⟩
abbrev S2 : Shape := ⟨1, ![2]⟩

abbrev nBuf : Space → Nat
  | .hbm => 49
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .bf16⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S50000x512, .f32⟩
  | .hbm, ⟨18, _⟩ => ⟨S16x512, .f32⟩
  | .hbm, ⟨19, _⟩ => ⟨S16x512, .f32⟩
  | .hbm, ⟨20, _⟩ => ⟨S16x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S2, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S2, .f32⟩
  | .hbm, ⟨38, _⟩ => ⟨S2, .f32⟩
  | .hbm, ⟨39, _⟩ => ⟨S2, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S2, .f32⟩
  | .hbm, ⟨44, _⟩ => ⟨S2, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S_, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S8x512_S8x512_0_0 : ∀ a, (![0, 0] : Fin 2 → Nat) a + S8x512.size a ≤ S8x512.size a
  h_S8x512 : 0 < S8x512.numel
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S8x512_S1x512_0_0 : ∀ a, (![0, 0] : Fin 2 → Nat) a + S1x512.size a ≤ S8x512.size a
  reduces_S1000x512_S512 : S1000x512.Reduces [0] S512
  reducesTo_S16x512_S_d0_1 : S16x512.ReducesTo [0, 1] S_
  h_S_ : 0 < S_.numel
  bcast_S_S1 : S_.BroadcastsInDim S1 (![] : Fin 0 → Fin S1.rank)
  concatenates_S1_S1_S2_d0 : Shape.Concatenates [S1, S1] S2 0
  reducesTo_S2_S_d0 : S2.ReducesTo [0] S_
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x512.size a ≤ S50000x512.size a
  hwx0_8 : ∀ i : grid0.Coords, EltTy.bits .f32 = 32 ∨ (Rect.block (s := S50000x512) S1000x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x512.size a ≤ S16x512.size a
  hwx0_9 : ∀ i : grid0.Coords, EltTy.bits .f32 = 32 ∨ (Rect.block (s := S16x512) S8x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x512.size a ≤ S16x512.size a
  hwx0_10 : ∀ i : grid0.Coords, EltTy.bits .f32 = 32 ∨ (Rect.block (s := S16x512) S8x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x512.size a ≤ S16x512.size a
  hwx0_11 : ∀ i : grid0.Coords, EltTy.bits .f32 = 32 ∨ (Rect.block (s := S16x512) S8x512.size (cc0_transform_11 i) (hinb0_11 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S1000x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S8x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_2) S8x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_3) S8x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S1 : Shape := ⟨1, ![1]⟩
abbrev S2 : Shape := ⟨1, ![2]⟩

abbrev nBuf : Space → Nat
  | .hbm => 63
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S50000x512, .f32⟩
  | .hbm, ⟨9, _⟩ => ⟨S_, .f32⟩
  | .hbm, ⟨10, _⟩ => ⟨S50000x512, .f32⟩
  | .hbm, ⟨11, _⟩ => ⟨S50000x512, .f32⟩
  | .hbm, ⟨12, _⟩ => ⟨S50000x512, .f32⟩
  | .hbm, ⟨13, _⟩ => ⟨S1x512, .f32⟩
  | .hbm, ⟨14, _⟩ => ⟨S50000x512, .f32⟩
  | .hbm, ⟨15, _⟩ => ⟨S50000x512, .f32⟩
  | .hbm, ⟨16, _⟩ => ⟨S50000x512, .f32⟩
  | .hbm, ⟨17, _⟩ => ⟨S50000x512, .f32⟩
  | .hbm, ⟨18, _⟩ => ⟨S1x512, .f32⟩
  | .hbm, ⟨19, _⟩ => ⟨S50000x512, .f32⟩
  | .hbm, ⟨20, _⟩ => ⟨S50000x512, .f32⟩
  | .hbm, ⟨21, _⟩ => ⟨S50000x512, .f32⟩
  | .hbm, ⟨22, _⟩ => ⟨S50000x512, .f32⟩
  | .hbm, ⟨23, _⟩ => ⟨S1x512, .f32⟩
  | .hbm, ⟨24, _⟩ => ⟨S50000x512, .f32⟩
  | .hbm, ⟨25, _⟩ => ⟨S50000x512, .f32⟩
  | .hbm, ⟨26, _⟩ => ⟨S50000x512, .f32⟩
  | .hbm, ⟨27, _⟩ => ⟨S50000x512, .f32⟩
  | .hbm, ⟨28, _⟩ => ⟨S_, .f32⟩
  | .hbm, ⟨29, _⟩ => ⟨S_, .f32⟩
  | .hbm, ⟨30, _⟩ => ⟨S50000x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S50000x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S2, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S2, .f32⟩
  | .hbm, ⟨47, _⟩ => ⟨S2, .f32⟩
  | .hbm, ⟨48, _⟩ => ⟨S2, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S2, .f32⟩
  | .hbm, ⟨53, _⟩ => ⟨S2, .f32⟩
  | .hbm, ⟨54, _⟩ => ⟨S50000x512, .f32⟩
  | .hbm, ⟨55, _⟩ => ⟨S50000x512, .f32⟩
  | .hbm, ⟨56, _⟩ => ⟨S50000x512, .f32⟩
  | .hbm, ⟨57, _⟩ => ⟨S50000x512, .f32⟩
  | .hbm, ⟨58, _⟩ => ⟨S50000x512, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S_d0_1 : S50000x512.ReducesTo [0, 1] S_
  h_S_ : 0 < S_.numel
  bcast_S_S1 : S_.BroadcastsInDim S1 (![] : Fin 0 → Fin S1.rank)
  concatenates_S1_S1_S2_d0 : Shape.Concatenates [S1, S1] S2 0
  reducesTo_S2_S_d0 : S2.ReducesTo [0] S_
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  dot_S50000x512_S512x512_S50000x512_1_1_0_0_n_n_wf : DotDims.WF S50000x512 S512x512 S50000x512 [1] [1] [0] [0] [] []

variable [Facts₀]

def dot_S50000x512_S512x512_S50000x512_1_1_0_0_n_n : DotDims S50000x512 S512x512 S50000x512 where
  lhsContracting := [1]
  rhsContracting := [1]
  lhsNonContracting := [0]
  rhsNonContracting := [0]
  lhsBatch := []
  rhsBatch := []
  wf := dot_S50000x512_S512x512_S50000x512_1_1_0_0_n_n_wf

class Facts : Prop extends Facts₀ where

variable [Facts]
-- ==== Proof.BodyMath.lean ====
/-
  The body's arithmetic read at an index, at the exact values.

  One tile of the kernel holds 1000 rows. Its gate for a tile `x`, a (transposed) weight block `w` and a bias row `b` is
  `tanh (x · w + b)`: entry `(r, e)` is `tanh (∑ₖ x(r, k) · w(k, e) + b(0, e))` — the matrix product into a zero
  accumulator is the plain sum, a change of float format is the identity, the bias row is repeated down the rows. The
  accumulator update adds to the carried row the column sums of the gate's squares: entry `(0, e)` becomes
  `row(0, e) + ∑ᵣ g(r, e)²`. The tile of the joint embedding is the gated sum, entry by entry.
-/
import proofs.«111152_j35055523070192_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-- The tile's gate at entry `(r, e)`. -/
def gateL (x : S1000x512.Idx → EReal) (w : S512x512.Idx → EReal) (b : S1x512.Idx → EReal) (r : Fin 1000) (e : Fin 512) : EReal :=
  Ideal.tanh ((∑ k : Fin 512, x (ix2 r k) * w (ix2 k e)) + b (ix2 (0 : Fin 1) e))

/-- The tile of the mean embedding. -/
def meanL (x y : S1000x512.Idx → EReal) : S1000x512.Idx → EReal :=
  fun i => Ideal.ofBits .f32 0x3F000000#32 * (x i + y i)

theorem lhs0 (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs1 (i : S1000x512.Idx) (q : dot_S1000x512_S512x512_S1000x512_1_0_0_1_n_n.contr.Idx) : (dot_S1000x512_S512x512_S1000x512_1_0_0_1_n_n.lhsIdx i q 1).val = (q ⟨0, by decide⟩).val :=
  dot_S1000x512_S512x512_S1000x512_1_0_0_1_n_n.lhsIdx_val_of_single rfl i q
theorem rhs0 (i : S1000x512.Idx) (q : dot_S1000x512_S512x512_S1000x512_1_0_0_1_n_n.contr.Idx) : (dot_S1000x512_S512x512_S1000x512_1_0_0_1_n_n.rhsIdx i q 0).val = (q ⟨0, by decide⟩).val :=
  dot_S1000x512_S512x512_S1000x512_1_0_0_1_n_n.rhsIdx_val_of_single rfl i q
theorem rhs1 (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The tile's matrix product into the zero accumulator, at `(r, e)`: the sum over the contracted axis. -/
theorem matmul_ix (lhs : FVec Ideal S1000x512 .bf16) (rhs : FVec Ideal S512x512 .bf16) (r : Fin 1000) (e : Fin 512) :
    matmul dot_S1000x512_S512x512_S1000x512_1_0_0_1_n_n none lhs rhs (constant (F := Ideal) S1000x512 .f32 0x00000000#32) (ix2 r e)
      = ∑ k : Fin 512, lhs (ix2 r k) * rhs (ix2 k e) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 r e) ((contrEquiv1 dot_S1000x512_S512x512_S1000x512_1_0_0_1_n_n 512 rfl rfl).symm k) = ix2 r k := funext fun a => Fin.ext (by
    match a with
    | ⟨0, _⟩ => exact lhs0 _ _
    | ⟨1, _⟩ => exact (lhs1 _ _).trans hk)
  have er : dot_S1000x512_S512x512_S1000x512_1_0_0_1_n_n.rhsIdx (ix2 r e) ((contrEquiv1 dot_S1000x512_S512x512_S1000x512_1_0_0_1_n_n 512 rfl rfl).symm k) = ix2 k e := funext fun a => Fin.ext (by
    match a with
    | ⟨0, _⟩ => exact (rhs0 _ _).trans hk
    | ⟨1, _⟩ => exact rhs1 _ _)
  rw [el, er]

/-- The bias row repeated down the tile's rows, at `(r, e)`. -/
theorem bias_ix (b : S1x512.Idx → EReal) (r : Fin 1000) (e : Fin 512) :
    broadcastTo S1000x512 b broadcasts_S1x512_S1000x512 (ix2 r e) = b (ix2 (0 : Fin 1) e) :=
  broadcastTo_apply b broadcasts_S1x512_S1000x512 (ix2 r e) (ix2 (0 : Fin 1) e) fun a => by
    match a with
    | ⟨0, _⟩ => show 0 = if (1 : ℕ) = 1 then 0 else r.val; rw [if_pos rfl]
    | ⟨1, _⟩ => show e.val = if (512 : ℕ) = 1 then 0 else e.val; rw [if_neg (by decide)]

/-- The three gate payloads are one function of their tile, weight block and bias row. -/
theorem pay9_apply (x : Vec Ideal S1000x512 .f32) (w : Vec Ideal S512x512 .bf16) (b : Vec Ideal S1x512 .f32) (r : Fin 1000) (e : Fin 512) :
    k0_pay9 (F := Ideal) x w b (ix2 r e) = gateL x w b r e := by
  unfold k0_pay9
  rw [shapeCast_self w, shapeCast_self b]
  show Ideal.tanh (matmul dot_S1000x512_S512x512_S1000x512_1_0_0_1_n_n none (truncf .bf16 x bitsLt_bf16_f32) w (constant (F := Ideal) S1000x512 .f32 0x00000000#32) (ix2 r e)
    + broadcastTo S1000x512 b broadcasts_S1x512_S1000x512 (ix2 r e)) = _
  rw [matmul_ix, bias_ix]
  rfl

theorem pay10_apply (x : Vec Ideal S1000x512 .f32) (w : Vec Ideal S512x512 .bf16) (b : Vec Ideal S1x512 .f32) (r : Fin 1000) (e : Fin 512) :
    k0_pay10 (F := Ideal) x w b (ix2 r e) = gateL x w b r e := pay9_apply x w b r e

theorem pay8_eq (x y : Vec Ideal S1000x512 .f32) : k0_pay8 (F := Ideal) x y = meanL x y := rfl

theorem pay11_apply (x y : Vec Ideal S1000x512 .f32) (w : Vec Ideal S512x512 .bf16) (b : Vec Ideal S1x512 .f32) (r : Fin 1000) (e : Fin 512) :
    k0_pay11 (F := Ideal) x y w b (ix2 r e) = gateL (meanL x y) w b r e := by
  unfold k0_pay11
  rw [shapeCast_self w, shapeCast_self b]
  show Ideal.tanh (matmul dot_S1000x512_S512x512_S1000x512_1_0_0_1_n_n none (truncf .bf16 (k0_pay8 (F := Ideal) x y) bitsLt_bf16_f32) w (constant (F := Ideal) S1000x512 .f32 0x00000000#32) (ix2 r e)
    + broadcastTo S1000x512 b broadcasts_S1x512_S1000x512 (ix2 r e)) = _
  rw [matmul_ix, bias_ix]
  rfl

/-- A `[512]` vector cast to a row `[1, 512]`, at `(0, e)`. -/
theorem row_cast_ix (v : S512.Idx → EReal) (e : Fin 512) :
    shapeCast S1x512 v shapeCasts_S512_S1x512 (ix2 (0 : Fin 1) e) = v (ix1 e) :=
  shapeCast_apply v shapeCasts_S512_S1x512 _ _ (by
    rw [Shape.rowMajor_val_two, Shape.rowMajor_val_one]
    show e.val = 0 * 512 + e.val
    omega)

/-- The accumulator update at `(0, e)`: the carried entry plus the column sum of the squares. -/
theorem pay1_apply (g : FVec Ideal S1000x512 .f32) (row : Vec Ideal S1x512 .f32) (e : Fin 512) :
    k0_pay1 (F := Ideal) g row (ix2 (0 : Fin 1) e) = row (ix2 (0 : Fin 1) e) + ∑ r : Fin 1000, g (ix2 r e) * g (ix2 r e) := by
  unfold k0_pay1
  rw [shapeCast_self row]
  show row (ix2 (0 : Fin 1) e) + shapeCast S1x512 (multiReduction .add [0] S512 (mulf g g) 0x00000000#32 reduces_S1000x512_S512 (.inl rfl) rfl) shapeCasts_S512_S1x512 (ix2 (0 : Fin 1) e) = _
  rw [row_cast_ix]
  refine congrArg (row (ix2 (0 : Fin 1) e) + ·) ?_
  refine (Ideal.multiReduction_add_single (mulf g g) 0x00000000#32 reduces_S1000x512_S512 (.inl rfl) rfl (ix1 e)).trans ?_
  refine Finset.sum_congr rfl fun r _ => ?_
  have hl : reduces_S1000x512_S512.lift (ix1 e) r = ix2 r e := funext fun a => Fin.ext (by
    match a with
    | ⟨0, _⟩ => rfl
    | ⟨1, _⟩ => rfl)
  show g (reduces_S1000x512_S512.lift (ix1 e) r) * g (reduces_S1000x512_S512.lift (ix1 e) r) = _
  rw [hl]
  rfl

theorem pay2_apply (g : FVec Ideal S1000x512 .f32) (row : Vec Ideal S1x512 .f32) (e : Fin 512) :
    k0_pay2 (F := Ideal) g row (ix2 (0 : Fin 1) e) = row (ix2 (0 : Fin 1) e) + ∑ r : Fin 1000, g (ix2 r e) * g (ix2 r e) := pay1_apply g row e
theorem pay3_apply (g : FVec Ideal S1000x512 .f32) (row : Vec Ideal S1x512 .f32) (e : Fin 512) :
    k0_pay3 (F := Ideal) g row (ix2 (0 : Fin 1) e) = row (ix2 (0 : Fin 1) e) + ∑ r : Fin 1000, g (ix2 r e) * g (ix2 r e) := pay1_apply g row e

/-- The joint tile, entry by entry. -/
theorem pay4_apply (x y : Vec Ideal S1000x512 .f32) (s gi gp gs : FVec Ideal S1000x512 .f32) (i : S1000x512.Idx) :
    k0_pay4 (F := Ideal) x y s gi gp gs i = (gs i * s i + gi i * x i) + gp i * y i := rfl

/-- The zero block the first tile of each half stores. -/
theorem pay5_apply (y : S8x512.Idx) : k0_pay5 (F := Ideal) y = 0 := Ideal.ofBits_zero_f32
theorem pay6_apply (y : S8x512.Idx) : k0_pay6 (F := Ideal) y = 0 := Ideal.ofBits_zero_f32
theorem pay7_apply (y : S8x512.Idx) : k0_pay7 (F := Ideal) y = 0 := Ideal.ofBits_zero_f32

end Cert.KernelIdeal.Body

end
-- ==== Proof.LibRowOverBlock.lean ====
/-
  A row written over a block.

  A staging block of `R` rows and `C` columns receives stores through two kinds of rectangle: the whole block, and its
  first row. Reading the block back afterwards, the newest store wins: an index on row 0 reads the row store's value at
  its column, any other index reads what the earlier stores (or the block's earlier contents) left; under a whole-block
  store every index reads that store's value. A load of the first row taken after one whole-block store reads the stored
  value along that row.
-/
import Idealize.ShloMosaic.Lib.Pipeline.Value
import Idealize.ShloMosaic.Lib.WritesUnit
import Idealize.ShloMosaic.Lib.ValueIdx

noncomputable section

open Idealize.ShloMosaic Idealize.ShloMosaic.ValueIdx

namespace Cert.RowOverBlock

variable {sig : RefSig} {κ : Kind} {sp : Space} {e : EltTy} {Val : EltTy → Type} {R C : ℕ}

/-- The newest store went through the first row (offsets `(0, 0)`, sizes `(1, C)`): an index on row 0 reads its value at
    the index's column, any other index reads what the rest of the list left. -/
theorem read_row0_cons (v : View sig κ sp (⟨2, ![R, C]⟩ : Shape) e) (f : v.ty.Contents Val)
    (inb : ∀ a : Fin 2, (![0, 0] : Fin 2 → ℕ) a + (![1, C] : Fin 2 → ℕ) a ≤ (![R, C] : Fin 2 → ℕ) a)
    (w : (Rect.unit (s := ⟨2, ![R, C]⟩) ![0, 0] ![1, C] inb).shape.Idx → Val e)
    (L : List (View.Piece Val (⟨2, ![R, C]⟩ : Shape) e)) (y : (⟨2, ![R, C]⟩ : Shape).Idx) :
    v.read Val (v.writes Val f ((⟨Rect.unit (s := ⟨2, ![R, C]⟩) ![0, 0] ![1, C] inb, w⟩ : View.Piece Val (⟨2, ![R, C]⟩ : Shape) e) :: L)) y
      = if (y (0 : Fin 2)).val = 0 then w (ix2 (0 : Fin 1) (y (1 : Fin 2))) else v.read Val (v.writes Val f L) y := by
  by_cases h : (y (0 : Fin 2)).val = 0
  · rw [if_pos h]
    exact View.read_writes_cons_rows_of_mem v f inb w L y (ix2 (0 : Fin 1) (y (1 : Fin 2))) rfl (by rw [h]; rfl) rfl
  · rw [if_neg h]
    exact View.read_writes_cons_rows_of_not_mem (o := 0) (W := 1) v f inb w L y rfl rfl (Or.inr (by omega))

/-- The newest store went through the whole block: every index reads its value. -/
theorem read_whole_cons (v : View sig κ sp (⟨2, ![R, C]⟩ : Shape) e) (f : v.ty.Contents Val)
    (inb : ∀ a : Fin 2, (![0, 0] : Fin 2 → ℕ) a + (![R, C] : Fin 2 → ℕ) a ≤ (![R, C] : Fin 2 → ℕ) a)
    (w : (⟨2, ![R, C]⟩ : Shape).Idx → Val e)
    (L : List (View.Piece Val (⟨2, ![R, C]⟩ : Shape) e)) (y : (⟨2, ![R, C]⟩ : Shape).Idx) :
    v.read Val (v.writes Val f ((⟨Rect.unit (s := ⟨2, ![R, C]⟩) ![0, 0] ![R, C] inb, w⟩ : View.Piece Val (⟨2, ![R, C]⟩ : Shape) e) :: L)) y = w y :=
  View.read_writes_cons_unit_of_mem v f inb w L y y rfl fun a => by
    match a with
    | ⟨0, _⟩ => show (y 0).val = 0 + (y 0).val; omega
    | ⟨1, _⟩ => show (y 1).val = 0 + (y 1).val; omega

/-- A load of the first row after ONE whole-block store of a value that is `z` everywhere reads `z`. -/
theorem readCov_row0_of_const [∀ e, Nonempty (Val e)] (v : View sig κ sp (⟨2, ![R, C]⟩ : Shape) e)
    (inb : ∀ a : Fin 2, (![0, 0] : Fin 2 → ℕ) a + (![R, C] : Fin 2 → ℕ) a ≤ (![R, C] : Fin 2 → ℕ) a)
    (w : (⟨2, ![R, C]⟩ : Shape).Idx → Val e) (z : Val e) (hw : ∀ y, w y = z) (B : LoadRect (⟨2, ![R, C]⟩ : Shape)) (j : B.shape.Idx) :
    v.readCov [(⟨Rect.unit (s := ⟨2, ![R, C]⟩) ![0, 0] ![R, C] inb, w⟩ : View.Piece Val (⟨2, ![R, C]⟩ : Shape) e)] B j = z := by
  rw [View.readCov_eq_canon']
  have hz : (![0, 0] : Fin 2 → ℕ) = fun _ => 0 := funext fun a => by fin_cases a <;> rfl
  show View.canon [(⟨Rect.unit (s := ⟨2, ![R, C]⟩) ![0, 0] (⟨2, ![R, C]⟩ : Shape).size inb, w⟩ : View.Piece Val (⟨2, ![R, C]⟩ : Shape) e)] (B.idx j) = z
  rw [View.canon_unit_zero hz]
  exact hw _

end Cert.RowOverBlock

end
-- ==== Proof.Pieces.lean ====
/-
  What one run of the body leaves in each output's staging block, as values.

  The body has two cases. At the first tile of each half it stores a zero block into each of the three accumulators,
  reads row 0 back, adds the tile's column sums and stores row 0; at every other tile it reads row 0 of what the tile
  before left, adds, and stores row 0 — the other rows are carried over untouched. In both cases the joint tile is one
  whole-block store. So after a first tile an accumulator holds the tile's column sums of squares on row 0 and zero
  elsewhere; after a later tile, row 0 has grown by the tile's column sums and the other rows are as before.
-/
import proofs.«111152_j35055523070192_2_alg».proof.Proof.Gen.KernelIdeal.Frame
import proofs.«111152_j35055523070192_2_alg».proof.Proof.BodyMath
import proofs.«111152_j35055523070192_2_alg».proof.Proof.LibRowOverBlock
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx

namespace Cert.KernelIdeal.Pieces

open Cert.KernelIdeal Cert.KernelIdeal.Gen Cert.KernelIdeal.Body Cert.RowOverBlock

theorem hz : (![0, 0] : Fin 2 → Nat) = fun _ => 0 := funext fun a => by fin_cases a <;> rfl

/-- The column sums of the squares of a tile's gate, column `e`. -/
def colsq (x : S1000x512.Idx → EReal) (w : S512x512.Idx → EReal) (b : S1x512.Idx → EReal) (e : Fin 512) : EReal :=
  ∑ r : Fin 1000, gateL x w b r e * gateL x w b r e

/-- The joint tile from the two input tiles, the three weight blocks and the three bias rows. -/
def jointL (x0 x1 : S1000x512.Idx → EReal) (x2 x3 x4 : S512x512.Idx → EReal) (x5 x6 x7 : S1x512.Idx → EReal) : S1000x512.Idx → EReal :=
  fun i => (gateL (meanL x0 x1) x4 x7 (i 0) (i 1) * meanL x0 x1 i + gateL x0 x2 x5 (i 0) (i 1) * x0 i) + gateL x1 x3 x6 (i 0) (i 1) * x1 i

theorem pay4_joint (x0 x1 : Vec Ideal S1000x512 .f32) (x2 x3 x4 : Vec Ideal S512x512 .bf16) (x5 x6 x7 : Vec Ideal S1x512 .f32) :
    k0_pay4 (F := Ideal) x0 x1 (k0_pay8 x0 x1) (k0_pay9 x0 x2 x5) (k0_pay10 x1 x3 x6) (k0_pay11 x0 x1 x4 x7) = jointL x0 x1 x2 x3 x4 x5 x6 x7 := by
  funext i
  obtain ⟨r, e, rfl⟩ : ∃ (r : Fin 1000) (e : Fin 512), i = ix2 r e := ⟨i 0, i 1, eq_ix2 i⟩
  rw [pay4_apply, pay9_apply, pay10_apply, pay11_apply, pay8_eq]
  rfl

variable {F : FTy → Type} [FloatOps F]

/-- The joint tile after a first tile. -/
theorem outA8 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay4 x0 x1 (k0_pay8 x0 x1) (k0_pay9 x0 x2 x5) (k0_pay10 x1 x3 x6) (k0_pay11 x0 x1 x4 x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread,
    View.ld_unit_zero (S := S1000x512) hz, View.ld_unit_zero (S := S512x512) hz, View.ld_unit_zero (S := S1x512) hz]

/-- The joint tile after a later tile. -/
theorem outB8 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : ¬cond0_0 i) (x0 : Vec F S1000x512 .f32) (x1 : Vec F S1000x512 .f32) (x2 : Vec F S512x512 .bf16) (x3 : Vec F S512x512 .bf16) (x4 : Vec F S512x512 .bf16) (x5 : Vec F S1x512 .f32) (x6 : Vec F S1x512 .f32) (x7 : Vec F S1x512 .f32) (xo9 : Vec F S8x512 .f32) (xo10 : Vec F S8x512 .f32) (xo11 : Vec F S8x512 .f32) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 = k0_pay4 x0 x1 (k0_pay8 x0 x1) (k0_pay9 x0 x2 x5) (k0_pay10 x1 x3 x6) (k0_pay11 x0 x1 x4 x7) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread,
    View.ld_unit_zero (S := S1000x512) hz, View.ld_unit_zero (S := S512x512) hz, View.ld_unit_zero (S := S1x512) hz]

/-- A load of the first row of a block, at column `e`, reads the block at `(0, e)`. -/
theorem ld_row0 (X : S8x512.Idx → EReal) (e : Fin 512) :
    View.ld (Val := Elt Ideal) (e' := .f32) X (Rect.unit (s := S8x512) ![0, 0] ![1, 512] inb_S8x512_S1x512_0_0) (ix2 (0 : Fin 1) e) = X (ix2 (0 : Fin 8) e) := by
  show X ((Rect.unit (s := S8x512) ![0, 0] ![1, 512] inb_S8x512_S1x512_0_0).idx (ix2 (0 : Fin 1) e)) = _
  refine congrArg X (funext fun a => Fin.ext ?_)
  match a with
  | ⟨0, _⟩ => show 0 + 1 * 0 = 0; rfl
  | ⟨1, _⟩ => show 0 + 1 * e.val = e.val; omega

/-- A load of the first row after one whole-block store of zeros reads zero. -/
theorem zero_row (v : View sig .tc .vmem S8x512 .f32) (w : S8x512.Idx → EReal) (hw : ∀ y, w y = 0) (e : Fin 512) :
    v.readCov (Val := Elt Ideal) [⟨Rect.unit (s := S8x512) ![0, 0] ![8, 512] inb_S8x512_S8x512_0_0, w⟩]
      (Rect.unit (s := S8x512) ![0, 0] ![1, 512] inb_S8x512_S1x512_0_0).toLoadRect (ix2 (0 : Fin 1) e) = 0 := by
  rw [View.readCov_eq_canon']
  show View.canon [(⟨Rect.unit (s := S8x512) ![0, 0] S8x512.size inb_S8x512_S8x512_0_0, w⟩ : View.Piece (Elt Ideal) S8x512 .f32)] _ = 0
  rw [View.canon_unit_zero hz]
  exact hw _

/-- Accumulator 9 after a first tile: the tile's column sums of squares on row 0, zero elsewhere. -/
theorem outA9 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : cond0_0 i) (x0 : Vec Ideal S1000x512 .f32) (x1 : Vec Ideal S1000x512 .f32) (x2 : Vec Ideal S512x512 .bf16) (x3 : Vec Ideal S512x512 .bf16) (x4 : Vec Ideal S512x512 .bf16) (x5 : Vec Ideal S1x512 .f32) (x6 : Vec Ideal S1x512 .f32) (x7 : Vec Ideal S1x512 .f32) (y : S8x512.Idx) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y = if (y (0 : Fin 2)).val = 0 then colsq x0 x2 x5 (y (1 : Fin 2)) else 0 := by
  unfold out0_A_9
  unfold kernelRun0_A
  dsimp only
  sl_unfold_words
  simp only [View.readAt_eq_ld, harg2.read_unread, harg4.read_unread, harg7.read_unread, View.ld_unit_zero (S := S1000x512) hz, View.ld_unit_zero (S := S512x512) hz, View.ld_unit_zero (S := S1x512) hz]
  refine (read_row0_cons _ _ _ _ _ y).trans ?_
  by_cases h : (y (0 : Fin 2)).val = 0
  · rw [if_pos h, if_pos h]
    refine (pay1_apply _ _ (y (1 : Fin 2))).trans ?_
    exact (congrArg₂ (· + ·) (zero_row _ _ pay5_apply (y (1 : Fin 2)))
      (Finset.sum_congr rfl fun r _ => congrArg₂ (· * ·) (pay9_apply x0 x2 x5 r _) (pay9_apply x0 x2 x5 r _))).trans (zero_add _)
  · rw [if_neg h, if_neg h]
    exact (read_whole_cons _ _ _ _ _ y).trans (pay5_apply y)

/-- Accumulator 10 after a first tile: the tile's column sums of squares on row 0, zero elsewhere. -/
theorem outA10 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : cond0_0 i) (x0 : Vec Ideal S1000x512 .f32) (x1 : Vec Ideal S1000x512 .f32) (x2 : Vec Ideal S512x512 .bf16) (x3 : Vec Ideal S512x512 .bf16) (x4 : Vec Ideal S512x512 .bf16) (x5 : Vec Ideal S1x512 .f32) (x6 : Vec Ideal S1x512 .f32) (x7 : Vec Ideal S1x512 .f32) (y : S8x512.Idx) :
    out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y = if (y (0 : Fin 2)).val = 0 then colsq x1 x3 x6 (y (1 : Fin 2)) else 0 := by
  unfold out0_A_10
  unfold kernelRun0_A
  dsimp only
  sl_unfold_words
  simp only [View.readAt_eq_ld, harg3.read_unread, harg5.read_unread, harg8.read_unread, View.ld_unit_zero (S := S1000x512) hz, View.ld_unit_zero (S := S512x512) hz, View.ld_unit_zero (S := S1x512) hz]
  refine (read_row0_cons _ _ _ _ _ y).trans ?_
  by_cases h : (y (0 : Fin 2)).val = 0
  · rw [if_pos h, if_pos h]
    refine (pay2_apply _ _ (y (1 : Fin 2))).trans ?_
    exact (congrArg₂ (· + ·) (zero_row _ _ pay6_apply (y (1 : Fin 2)))
      (Finset.sum_congr rfl fun r _ => congrArg₂ (· * ·) (pay10_apply x1 x3 x6 r _) (pay10_apply x1 x3 x6 r _))).trans (zero_add _)
  · rw [if_neg h, if_neg h]
    exact (read_whole_cons _ _ _ _ _ y).trans (pay6_apply y)

/-- Accumulator 11 after a first tile: the tile's column sums of squares on row 0, zero elsewhere. -/
theorem outA11 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : cond0_0 i) (x0 : Vec Ideal S1000x512 .f32) (x1 : Vec Ideal S1000x512 .f32) (x2 : Vec Ideal S512x512 .bf16) (x3 : Vec Ideal S512x512 .bf16) (x4 : Vec Ideal S512x512 .bf16) (x5 : Vec Ideal S1x512 .f32) (x6 : Vec Ideal S1x512 .f32) (x7 : Vec Ideal S1x512 .f32) (y : S8x512.Idx) :
    out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y = if (y (0 : Fin 2)).val = 0 then colsq (meanL x0 x1) x4 x7 (y (1 : Fin 2)) else 0 := by
  unfold out0_A_11
  unfold kernelRun0_A
  dsimp only
  sl_unfold_words
  simp only [View.readAt_eq_ld, harg2.read_unread, harg3.read_unread, harg6.read_unread, harg9.read_unread, View.ld_unit_zero (S := S1000x512) hz, View.ld_unit_zero (S := S512x512) hz, View.ld_unit_zero (S := S1x512) hz]
  refine (read_row0_cons _ _ _ _ _ y).trans ?_
  by_cases h : (y (0 : Fin 2)).val = 0
  · rw [if_pos h, if_pos h]
    refine (pay3_apply _ _ (y (1 : Fin 2))).trans ?_
    exact (congrArg₂ (· + ·) (zero_row _ _ pay7_apply (y (1 : Fin 2)))
      (Finset.sum_congr rfl fun r _ => congrArg₂ (· * ·) (pay11_apply x0 x1 x4 x7 r _) (pay11_apply x0 x1 x4 x7 r _))).trans (zero_add _)
  · rw [if_neg h, if_neg h]
    exact (read_whole_cons _ _ _ _ _ y).trans (pay7_apply y)

/-- Accumulator 9 after a later tile: row 0 has grown by the tile's column sums of squares, the rest is carried over. -/
theorem outB9 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : ¬cond0_0 i) (x0 : Vec Ideal S1000x512 .f32) (x1 : Vec Ideal S1000x512 .f32) (x2 : Vec Ideal S512x512 .bf16) (x3 : Vec Ideal S512x512 .bf16) (x4 : Vec Ideal S512x512 .bf16) (x5 : Vec Ideal S1x512 .f32) (x6 : Vec Ideal S1x512 .f32) (x7 : Vec Ideal S1x512 .f32) (xo9 : Vec Ideal S8x512 .f32) (xo10 : Vec Ideal S8x512 .f32) (xo11 : Vec Ideal S8x512 .f32) (y : S8x512.Idx) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 y
      = if (y (0 : Fin 2)).val = 0 then xo9 (ix2 (0 : Fin 8) (y (1 : Fin 2))) + colsq x0 x2 x5 (y (1 : Fin 2)) else xo9 y := by
  unfold out0_B_9
  unfold kernelRun0_B
  dsimp only
  sl_unfold_words
  simp only [View.readAt_eq_ld, harg2.read_unread, harg4.read_unread, harg7.read_unread, harg11.read_unread, View.ld_unit_zero (S := S1000x512) hz, View.ld_unit_zero (S := S512x512) hz, View.ld_unit_zero (S := S1x512) hz]
  refine (read_row0_cons _ _ _ _ _ y).trans ?_
  by_cases h : (y (0 : Fin 2)).val = 0
  · rw [if_pos h, if_pos h]
    refine (pay1_apply _ _ (y (1 : Fin 2))).trans ?_
    exact congrArg₂ (· + ·) (ld_row0 xo9 (y (1 : Fin 2)))
      (Finset.sum_congr rfl fun r _ => congrArg₂ (· * ·) (pay9_apply x0 x2 x5 r _) (pay9_apply x0 x2 x5 r _))
  · rw [if_neg h, if_neg h, View.writes_nil, harg11.read_unread]

/-- Accumulator 10 after a later tile: row 0 has grown by the tile's column sums of squares, the rest is carried over. -/
theorem outB10 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : ¬cond0_0 i) (x0 : Vec Ideal S1000x512 .f32) (x1 : Vec Ideal S1000x512 .f32) (x2 : Vec Ideal S512x512 .bf16) (x3 : Vec Ideal S512x512 .bf16) (x4 : Vec Ideal S512x512 .bf16) (x5 : Vec Ideal S1x512 .f32) (x6 : Vec Ideal S1x512 .f32) (x7 : Vec Ideal S1x512 .f32) (xo9 : Vec Ideal S8x512 .f32) (xo10 : Vec Ideal S8x512 .f32) (xo11 : Vec Ideal S8x512 .f32) (y : S8x512.Idx) :
    out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 y
      = if (y (0 : Fin 2)).val = 0 then xo10 (ix2 (0 : Fin 8) (y (1 : Fin 2))) + colsq x1 x3 x6 (y (1 : Fin 2)) else xo10 y := by
  unfold out0_B_10
  unfold kernelRun0_B
  dsimp only
  sl_unfold_words
  simp only [View.readAt_eq_ld, harg3.read_unread, harg5.read_unread, harg8.read_unread, harg12.read_unread, View.ld_unit_zero (S := S1000x512) hz, View.ld_unit_zero (S := S512x512) hz, View.ld_unit_zero (S := S1x512) hz]
  refine (read_row0_cons _ _ _ _ _ y).trans ?_
  by_cases h : (y (0 : Fin 2)).val = 0
  · rw [if_pos h, if_pos h]
    refine (pay2_apply _ _ (y (1 : Fin 2))).trans ?_
    exact congrArg₂ (· + ·) (ld_row0 xo10 (y (1 : Fin 2)))
      (Finset.sum_congr rfl fun r _ => congrArg₂ (· * ·) (pay10_apply x1 x3 x6 r _) (pay10_apply x1 x3 x6 r _))
  · rw [if_neg h, if_neg h, View.writes_nil, harg12.read_unread]

/-- Accumulator 11 after a later tile: row 0 has grown by the tile's column sums of squares, the rest is carried over. -/
theorem outB11 (c : Dev nD) (i : grid0.Coords) (arg2 : Memref sig .tc .vmem S1000x512 .f32) (harg2 : arg2.IsWhole) (arg3 : Memref sig .tc .vmem S1000x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1000x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x512 .f32) (harg13 : arg13.IsWhole) (hc0 : ¬cond0_0 i) (x0 : Vec Ideal S1000x512 .f32) (x1 : Vec Ideal S1000x512 .f32) (x2 : Vec Ideal S512x512 .bf16) (x3 : Vec Ideal S512x512 .bf16) (x4 : Vec Ideal S512x512 .bf16) (x5 : Vec Ideal S1x512 .f32) (x6 : Vec Ideal S1x512 .f32) (x7 : Vec Ideal S1x512 .f32) (xo9 : Vec Ideal S8x512 .f32) (xo10 : Vec Ideal S8x512 .f32) (xo11 : Vec Ideal S8x512 .f32) (y : S8x512.Idx) :
    out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 y
      = if (y (0 : Fin 2)).val = 0 then xo11 (ix2 (0 : Fin 8) (y (1 : Fin 2))) + colsq (meanL x0 x1) x4 x7 (y (1 : Fin 2)) else xo11 y := by
  unfold out0_B_11
  unfold kernelRun0_B
  dsimp only
  sl_unfold_words
  simp only [View.readAt_eq_ld, harg2.read_unread, harg3.read_unread, harg6.read_unread, harg9.read_unread, harg13.read_unread, View.ld_unit_zero (S := S1000x512) hz, View.ld_unit_zero (S := S512x512) hz, View.ld_unit_zero (S := S1x512) hz]
  refine (read_row0_cons _ _ _ _ _ y).trans ?_
  by_cases h : (y (0 : Fin 2)).val = 0
  · rw [if_pos h, if_pos h]
    refine (pay3_apply _ _ (y (1 : Fin 2))).trans ?_
    exact congrArg₂ (· + ·) (ld_row0 xo11 (y (1 : Fin 2)))
      (Finset.sum_congr rfl fun r _ => congrArg₂ (· * ·) (pay11_apply x0 x1 x4 x7 r _) (pay11_apply x0 x1 x4 x7 r _))
  · rw [if_neg h, if_neg h, View.writes_nil, harg13.read_unread]

end Cert.KernelIdeal.Pieces

end
-- ==== Proof.Blocks.lean ====
/-
  The tiles the body sees, read off the argument arrays.

  Grid point `t` (of 50, in order) works on rows `1000 · t … 1000 · t + 999` of the two embeddings; the three weight
  blocks are the whole weight matrices transposed (a change of float format is the identity), so entry `(k, e)` of a block
  is entry `(e, k)` of its matrix; the three bias rows are the bias vectors laid out as one row.
-/
import proofs.«111152_j35055523070192_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen

variable (m : (ℓ : Loc nD τ sig) → Buf (Elt Ideal) ℓ)

/-- The row-tile windows' block index at point `t` is `(t, 0)`; the resident windows' is `(0, 0)`. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-- The first embedding's tile at point `t`: row `r` is row `1000 · t + r` of the array. -/
theorem blk0 (c : Dev nD) (t : Fin cfg0.N) (r : Fin 1000) (k : Fin 512) (n : Fin 50000) (hn : n.val = 1000 * t.val + r.val) :
    (iblk m c 0 t : S1000x512.Idx → EReal) (ix2 r k) = m ((c : Thread nD τ).loc main_arg0) (ix2 n k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1000 + 1 * r.val = n.val; rw [(idx0 t).1]; omega
  | ⟨1, _⟩ => show win0_0.index t 1 * 512 + 1 * k.val = k.val; rw [(idx0 t).2]; omega

/-- The second embedding's tile likewise. -/
theorem blk1 (c : Dev nD) (t : Fin cfg0.N) (r : Fin 1000) (k : Fin 512) (n : Fin 50000) (hn : n.val = 1000 * t.val + r.val) :
    (iblk m c 1 t : S1000x512.Idx → EReal) (ix2 r k) = m ((c : Thread nD τ).loc main_arg1) (ix2 n k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1000 + 1 * r.val = n.val; rw [(idx1 t).1]; omega
  | ⟨1, _⟩ => show win0_1.index t 1 * 512 + 1 * k.val = k.val; rw [(idx1 t).2]; omega

/-- A transposed weight matrix at `(k, e)` is the matrix at `(e, k)`. -/
theorem transposed_ix (W : S512x512.Idx → EReal) (k e : Fin 512) :
    transpose S512x512 [1, 0] W transposes_S512x512_S512x512_1_0 (ix2 k e) = W (ix2 e k) :=
  transpose_apply [1, 0] W transposes_S512x512_S512x512_1_0 (ix2 k e) (ix2 e k) fun b => by
    match b with
    | ⟨0, _⟩ => rfl
    | ⟨1, _⟩ => rfl

/-- A bias vector laid out as a row, at `(0, e)`. -/
theorem bias_row_ix (v : S512.Idx → EReal) (e : Fin 512) :
    shapeCast S1x512 v shapeCasts_S512_S1x512 (ix2 (0 : Fin 1) e) = v (ix1 e) :=
  shapeCast_apply v shapeCasts_S512_S1x512 _ _ (by
    rw [Shape.rowMajor_val_two, Shape.rowMajor_val_one]
    show e.val = 0 * 512 + e.val
    omega)

theorem V_v1 (c : Dev nD) : (V m c main_v1 : S512x512.Idx → EReal)
    = truncf (F := Ideal) .bf16 (transpose S512x512 [1, 0] (m ((c : Thread nD τ).loc main_arg4)) transposes_S512x512_S512x512_1_0) bitsLt_bf16_f32 := by
  show StableHlo.after hostOps0 (fun b => m (c, b)) (Proc.devRef .tc main_v1) = _
  after_results
theorem V_v3 (c : Dev nD) : (V m c main_v3 : S512x512.Idx → EReal)
    = truncf (F := Ideal) .bf16 (transpose S512x512 [1, 0] (m ((c : Thread nD τ).loc main_arg6)) transposes_S512x512_S512x512_1_0) bitsLt_bf16_f32 := by
  show StableHlo.after hostOps0 (fun b => m (c, b)) (Proc.devRef .tc main_v3) = _
  after_results
theorem V_v5 (c : Dev nD) : (V m c main_v5 : S512x512.Idx → EReal)
    = truncf (F := Ideal) .bf16 (transpose S512x512 [1, 0] (m ((c : Thread nD τ).loc main_arg2)) transposes_S512x512_S512x512_1_0) bitsLt_bf16_f32 := by
  show StableHlo.after hostOps0 (fun b => m (c, b)) (Proc.devRef .tc main_v5) = _
  after_results
theorem V_v6 (c : Dev nD) : (V m c main_v6 : S1x512.Idx → EReal)
    = shapeCast S1x512 (m ((c : Thread nD τ).loc main_arg5)) shapeCasts_S512_S1x512 := by
  show StableHlo.after hostOps0 (fun b => m (c, b)) (Proc.devRef .tc main_v6) = _
  after_results
  rfl
theorem V_v7 (c : Dev nD) : (V m c main_v7 : S1x512.Idx → EReal)
    = shapeCast S1x512 (m ((c : Thread nD τ).loc main_arg7)) shapeCasts_S512_S1x512 := by
  show StableHlo.after hostOps0 (fun b => m (c, b)) (Proc.devRef .tc main_v7) = _
  after_results
  rfl
theorem V_v8 (c : Dev nD) : (V m c main_v8 : S1x512.Idx → EReal)
    = shapeCast S1x512 (m ((c : Thread nD τ).loc main_arg3)) shapeCasts_S512_S1x512 := by
  show StableHlo.after hostOps0 (fun b => m (c, b)) (Proc.devRef .tc main_v8) = _
  after_results
  rfl

/-- The first gate's weight block. -/
theorem blk2 (c : Dev nD) (t : Fin cfg0.N) (k e : Fin 512) :
    (iblk m c 2 t : S512x512.Idx → EReal) (ix2 k e) = m ((c : Thread nD τ).loc main_arg4) (ix2 e k) := by
  unfold iblk
  rw [View.read_apply]
  show V m c main_v1 _ = _
  refine (congrFun (V_v1 m c) _).trans ?_
  refine (congrArg (transpose S512x512 [1, 0] (m ((c : Thread nD τ).loc main_arg4)) transposes_S512x512_S512x512_1_0)
    (funext fun a => Fin.ext ?_ : _ = ix2 k e)).trans (transposed_ix _ k e)
  match a with
  | ⟨0, _⟩ => show win0_2.index t 0 * 512 + 1 * k.val = k.val; rw [(idx2 t).1]; omega
  | ⟨1, _⟩ => show win0_2.index t 1 * 512 + 1 * e.val = e.val; rw [(idx2 t).2]; omega

/-- The second gate's weight block. -/
theorem blk3 (c : Dev nD) (t : Fin cfg0.N) (k e : Fin 512) :
    (iblk m c 3 t : S512x512.Idx → EReal) (ix2 k e) = m ((c : Thread nD τ).loc main_arg6) (ix2 e k) := by
  unfold iblk
  rw [View.read_apply]
  show V m c main_v3 _ = _
  refine (congrFun (V_v3 m c) _).trans ?_
  refine (congrArg (transpose S512x512 [1, 0] (m ((c : Thread nD τ).loc main_arg6)) transposes_S512x512_S512x512_1_0)
    (funext fun a => Fin.ext ?_ : _ = ix2 k e)).trans (transposed_ix _ k e)
  match a with
  | ⟨0, _⟩ => show win0_3.index t 0 * 512 + 1 * k.val = k.val; rw [(idx3 t).1]; omega
  | ⟨1, _⟩ => show win0_3.index t 1 * 512 + 1 * e.val = e.val; rw [(idx3 t).2]; omega

/-- The shared gate's weight block. -/
theorem blk4 (c : Dev nD) (t : Fin cfg0.N) (k e : Fin 512) :
    (iblk m c 4 t : S512x512.Idx → EReal) (ix2 k e) = m ((c : Thread nD τ).loc main_arg2) (ix2 e k) := by
  unfold iblk
  rw [View.read_apply]
  show V m c main_v5 _ = _
  refine (congrFun (V_v5 m c) _).trans ?_
  refine (congrArg (transpose S512x512 [1, 0] (m ((c : Thread nD τ).loc main_arg2)) transposes_S512x512_S512x512_1_0)
    (funext fun a => Fin.ext ?_ : _ = ix2 k e)).trans (transposed_ix _ k e)
  match a with
  | ⟨0, _⟩ => show win0_4.index t 0 * 512 + 1 * k.val = k.val; rw [(idx4 t).1]; omega
  | ⟨1, _⟩ => show win0_4.index t 1 * 512 + 1 * e.val = e.val; rw [(idx4 t).2]; omega

/-- The first gate's bias row. -/
theorem blk5 (c : Dev nD) (t : Fin cfg0.N) (e : Fin 512) :
    (iblk m c 5 t : S1x512.Idx → EReal) (ix2 (0 : Fin 1) e) = m ((c : Thread nD τ).loc main_arg5) (ix1 e) := by
  unfold iblk
  rw [View.read_apply]
  show V m c main_v6 _ = _
  refine (congrFun (V_v6 m c) _).trans ?_
  refine (congrArg (shapeCast S1x512 (m ((c : Thread nD τ).loc main_arg5)) shapeCasts_S512_S1x512)
    (funext fun a => Fin.ext ?_ : _ = ix2 (0 : Fin 1) e)).trans (bias_row_ix _ e)
  match a with
  | ⟨0, _⟩ => show win0_5.index t 0 * 1 + 1 * 0 = 0; rw [(idx5 t).1]
  | ⟨1, _⟩ => show win0_5.index t 1 * 512 + 1 * e.val = e.val; rw [(idx5 t).2]; omega

/-- The second gate's bias row. -/
theorem blk6 (c : Dev nD) (t : Fin cfg0.N) (e : Fin 512) :
    (iblk m c 6 t : S1x512.Idx → EReal) (ix2 (0 : Fin 1) e) = m ((c : Thread nD τ).loc main_arg7) (ix1 e) := by
  unfold iblk
  rw [View.read_apply]
  show V m c main_v7 _ = _
  refine (congrFun (V_v7 m c) _).trans ?_
  refine (congrArg (shapeCast S1x512 (m ((c : Thread nD τ).loc main_arg7)) shapeCasts_S512_S1x512)
    (funext fun a => Fin.ext ?_ : _ = ix2 (0 : Fin 1) e)).trans (bias_row_ix _ e)
  match a with
  | ⟨0, _⟩ => show win0_6.index t 0 * 1 + 1 * 0 = 0; rw [(idx6 t).1]
  | ⟨1, _⟩ => show win0_6.index t 1 * 512 + 1 * e.val = e.val; rw [(idx6 t).2]; omega

/-- The shared gate's bias row. -/
theorem blk7 (c : Dev nD) (t : Fin cfg0.N) (e : Fin 512) :
    (iblk m c 7 t : S1x512.Idx → EReal) (ix2 (0 : Fin 1) e) = m ((c : Thread nD τ).loc main_arg3) (ix1 e) := by
  unfold iblk
  rw [View.read_apply]
  show V m c main_v8 _ = _
  refine (congrFun (V_v8 m c) _).trans ?_
  refine (congrArg (shapeCast S1x512 (m ((c : Thread nD τ).loc main_arg3)) shapeCasts_S512_S1x512)
    (funext fun a => Fin.ext ?_ : _ = ix2 (0 : Fin 1) e)).trans (bias_row_ix _ e)
  match a with
  | ⟨0, _⟩ => show win0_7.index t 0 * 1 + 1 * 0 = 0; rw [(idx7 t).1]
  | ⟨1, _⟩ => show win0_7.index t 1 * 512 + 1 * e.val = e.val; rw [(idx7 t).2]; omega

end Cert.KernelIdeal.Blocks

end
-- ==== Proof.Spec.lean ====
/-
  The mathematics both programs compute, stated once over the argument arrays, and the one law that joins their two
  ways of adding up a squared gate matrix.

  For row embeddings `x` ([50000, 512]), a weight matrix `W` ([512, 512]) and a bias `b` ([512]) the GATE is
  `tanh (x · Wᵀ + b)`, entry by entry. The shared embedding is the mean `c · (img + ph)` (`c` the constant one half), the
  joint embedding is `gate_sh · sh + gate_img · img + gate_ph · ph`, and each score is the total of a gate's squares.
  One program adds the squares over the whole [50000, 512] matrix at once; the other adds them tile by tile into two rows
  of a [16, 512] array (rows 0 and 8; the other rows stay zero) and then adds that small array up. Addition of extended
  reals is commutative and associative, so the two totals agree (`sum_partials`).
-/
import Idealize.ShloMosaic.PureOps.Ideal.Laws
import Idealize.ShloMosaic.Lib.ValueIdx

noncomputable section

namespace Cert.Spec

open Idealize.ShloMosaic Idealize.ShloMosaic.ValueIdx Finset

abbrev Rows : Shape := ⟨2, ![50000, 512]⟩
abbrev Sq : Shape := ⟨2, ![512, 512]⟩
abbrev Vc : Shape := ⟨1, ![512]⟩
abbrev Part : Shape := ⟨2, ![16, 512]⟩

/-- The mean of two embeddings, `c · (x + y)` entry by entry. -/
def mean2 (c : EReal) (x y : Rows.Idx → EReal) : Rows.Idx → EReal := fun i => c * (x i + y i)

/-- The gate `tanh (x · Wᵀ + b)` at entry `i = (n, e)`: row `n` of `x` against row `e` of `W`, plus `b e`. -/
def gate (x : Rows.Idx → EReal) (W : Sq.Idx → EReal) (b : Vc.Idx → EReal) (i : Rows.Idx) : EReal :=
  Ideal.tanh ((∑ k : Fin 512, x (ix2 (i 0) k) * W (ix2 (i 1) k)) + b (ix1 (i 1)))

/-- The joint embedding: each embedding weighted by its own gate, the shared one first. -/
def joint (gs sh gi img gp ph : Rows.Idx → EReal) : Rows.Idx → EReal :=
  fun i => (gs i * sh i + gi i * img i) + gp i * ph i

/-- The square of `a` at flat row `p`, column `d`; zero for a row beyond the array. -/
def sq (a : Rows.Idx → EReal) (p : ℕ) (d : Fin 512) : EReal :=
  if h : p < 50000 then a (ix2 ⟨p, h⟩ d) * a (ix2 ⟨p, h⟩ d) else 0

/-- The [16, 512] array of partial sums: row `8 · c` holds, per column, the squares of rows
    `25000 · c … 25000 · c + 24999` added up; every other row is zero. -/
def partials (a : Rows.Idx → EReal) : Part.Idx → EReal := fun y =>
  if (y 0).val % 8 = 0 then ∑ p ∈ range 25000, sq a (25000 * ((y 0).val / 8) + p) (y 1) else 0

/-- The squares of the first `50000` flat rows, column `d`, are the squares over the matrix's rows. -/
theorem sum_sq_range (a : Rows.Idx → EReal) (d : Fin 512) :
    ∑ p ∈ range 50000, sq a p d = ∑ n : Fin 50000, a (ix2 n d) * a (ix2 n d) := by
  rw [Finset.sum_range]
  exact Finset.sum_congr rfl fun n _ => by unfold sq; rw [dif_pos n.isLt]

/-- Adding up the partial sums gives the total of the squares: per column the two non-zero rows hold the two halves of
    the rows, and the order of a finite sum does not matter. -/
theorem sum_partials (a : Rows.Idx → EReal) : ∑ y : Part.Idx, partials a y = ∑ i : Rows.Idx, a i * a i := by
  rw [sum_idx2, sum_idx2, Finset.sum_comm, Finset.sum_comm (s := (Finset.univ : Finset (Fin 50000)))]
  refine Finset.sum_congr rfl fun d _ => ?_
  have key : ∀ G : ℕ → EReal, ∑ r ∈ range 16, (if r % 8 = 0 then G (r / 8) else 0) = G 0 + G 1 := by
    intro G
    simp only [Finset.sum_range_succ, Finset.sum_range_zero]
    norm_num
  have h16 : ∑ r : Fin 16, partials a (ix2 r d)
      = ∑ r ∈ range 16, (if r % 8 = 0 then (fun c => ∑ p ∈ range 25000, sq a (25000 * c + p) d) (r / 8) else 0) :=
    (Finset.sum_range (fun r => if r % 8 = 0 then ∑ p ∈ range 25000, sq a (25000 * (r / 8) + p) d else 0)).symm
  have hsplit : ∑ p ∈ range 50000, sq a p d
      = (∑ p ∈ range 25000, sq a p d) + ∑ p ∈ range 25000, sq a (25000 + p) d :=
    Finset.sum_range_add (fun p => sq a p d) 25000 25000
  rw [h16, ← sum_sq_range, hsplit]
  refine (key (fun c => ∑ p ∈ range 25000, sq a (25000 * c + p) d)).trans ?_
  show (∑ p ∈ range 25000, sq a (25000 * 0 + p) d) + (∑ p ∈ range 25000, sq a (25000 * 1 + p) d) = _
  rw [Nat.mul_zero, Nat.mul_one]
  simp only [Nat.zero_add]

end Cert.Spec

end
-- ==== Proof.Accum.lean ====
/-
  The accumulators, point by point.

  With the gates written over the whole argument arrays, the tile at grid point `t` is rows `1000 · t … 1000 · t + 999`,
  so a tile's column sums of squares are the squares of those rows added up. The points run through the first half of
  the rows (points 0–24) and then the second (25–49); an accumulator is reset at points 0 and 25 and grows at every
  other point. So after point `n` row 0 of an accumulator holds, per column, the squares of rows
  `25000 · (n / 25) … 25000 · (n / 25) + 1000 · (n % 25 + 1) − 1` added up, and the other rows hold zero.
-/
import proofs.«111152_j35055523070192_2_alg».proof.Proof.Pieces
import proofs.«111152_j35055523070192_2_alg».proof.Proof.Blocks
import proofs.«111152_j35055523070192_2_alg».proof.Proof.Spec

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Body Cert.KernelIdeal.Pieces Cert.KernelIdeal.Blocks

variable (m : (ℓ : Loc nD τ sig) → Buf (Elt Ideal) ℓ)

/-- The argument arrays on device `c`. -/
abbrev IMG (c : Dev nD) : Spec.Rows.Idx → EReal := m ((c : Thread nD τ).loc main_arg0)
abbrev PH (c : Dev nD) : Spec.Rows.Idx → EReal := m ((c : Thread nD τ).loc main_arg1)
abbrev WSH (c : Dev nD) : Spec.Sq.Idx → EReal := m ((c : Thread nD τ).loc main_arg2)
abbrev BSH (c : Dev nD) : Spec.Vc.Idx → EReal := m ((c : Thread nD τ).loc main_arg3)
abbrev WIMG (c : Dev nD) : Spec.Sq.Idx → EReal := m ((c : Thread nD τ).loc main_arg4)
abbrev BIMG (c : Dev nD) : Spec.Vc.Idx → EReal := m ((c : Thread nD τ).loc main_arg5)
abbrev WPH (c : Dev nD) : Spec.Sq.Idx → EReal := m ((c : Thread nD τ).loc main_arg6)
abbrev BPH (c : Dev nD) : Spec.Vc.Idx → EReal := m ((c : Thread nD τ).loc main_arg7)

/-- The constant one half. -/
def half : EReal := Ideal.ofBits .f32 0x3F000000#32
/-- The shared embedding and the three gates, over the whole arrays. -/
def SH (c : Dev nD) : Spec.Rows.Idx → EReal := Spec.mean2 half (IMG m c) (PH m c)
def GI (c : Dev nD) : Spec.Rows.Idx → EReal := Spec.gate (IMG m c) (WIMG m c) (BIMG m c)
def GP (c : Dev nD) : Spec.Rows.Idx → EReal := Spec.gate (PH m c) (WPH m c) (BPH m c)
def GS (c : Dev nD) : Spec.Rows.Idx → EReal := Spec.gate (SH m c) (WSH m c) (BSH m c)

/-- The tile of the shared embedding is its rows of the whole one. -/
theorem tile_sh (c : Dev nD) (t : Fin cfg0.N) (r : Fin 1000) (k : Fin 512) (n : Fin 50000) (hn : n.val = 1000 * t.val + r.val) :
    meanL (iblk m c 0 t) (iblk m c 1 t) (ix2 r k) = SH m c (ix2 n k) := by
  unfold meanL SH Spec.mean2 half
  exact congrArg (Ideal.ofBits .f32 0x3F000000#32 * ·) (congrArg₂ (· + ·) (blk0 m c t r k n hn) (blk1 m c t r k n hn))

/-- Each tile gate is the whole gate on the tile's rows. -/
theorem tile_gi (c : Dev nD) (t : Fin cfg0.N) (r : Fin 1000) (e : Fin 512) (n : Fin 50000) (hn : n.val = 1000 * t.val + r.val) :
    gateL (iblk m c 0 t) (iblk m c 2 t) (iblk m c 5 t) r e = GI m c (ix2 n e) := by
  unfold gateL GI Spec.gate
  exact congrArg Ideal.tanh (congrArg₂ (· + ·)
    (Finset.sum_congr rfl fun k _ => congrArg₂ (· * ·) (blk0 m c t r k n hn) (blk2 m c t k e)) (blk5 m c t e))
theorem tile_gp (c : Dev nD) (t : Fin cfg0.N) (r : Fin 1000) (e : Fin 512) (n : Fin 50000) (hn : n.val = 1000 * t.val + r.val) :
    gateL (iblk m c 1 t) (iblk m c 3 t) (iblk m c 6 t) r e = GP m c (ix2 n e) := by
  unfold gateL GP Spec.gate
  exact congrArg Ideal.tanh (congrArg₂ (· + ·)
    (Finset.sum_congr rfl fun k _ => congrArg₂ (· * ·) (blk1 m c t r k n hn) (blk3 m c t k e)) (blk6 m c t e))
theorem tile_gs (c : Dev nD) (t : Fin cfg0.N) (r : Fin 1000) (e : Fin 512) (n : Fin 50000) (hn : n.val = 1000 * t.val + r.val) :
    gateL (meanL (iblk m c 0 t) (iblk m c 1 t)) (iblk m c 4 t) (iblk m c 7 t) r e = GS m c (ix2 n e) := by
  unfold gateL GS Spec.gate
  exact congrArg Ideal.tanh (congrArg₂ (· + ·)
    (Finset.sum_congr rfl fun k _ => congrArg₂ (· * ·) (tile_sh m c t r k n hn) (blk4 m c t k e)) (blk7 m c t e))

/-- A tile's column sums of squares are the squares of its rows of the whole gate, added up. -/
theorem colsq_of_tile (X : S1000x512.Idx → EReal) (W : S512x512.Idx → EReal) (B : S1x512.Idx → EReal)
    (a : Spec.Rows.Idx → EReal) (tv : ℕ) (htv : tv < 50) (e : Fin 512)
    (h : ∀ (r : Fin 1000) (n : Fin 50000), n.val = 1000 * tv + r.val → gateL X W B r e = a (ix2 n e)) :
    colsq X W B e = ∑ r ∈ Finset.range 1000, Spec.sq a (1000 * tv + r) e := by
  rw [Finset.sum_range]
  unfold colsq
  refine Finset.sum_congr rfl fun r _ => ?_
  have hlt : 1000 * tv + r.val < 50000 := by have := r.isLt; omega
  unfold Spec.sq
  rw [dif_pos hlt, h r ⟨_, hlt⟩ rfl]

theorem tlt (t : Fin cfg0.N) : t.val < 50 := lt_of_lt_of_eq t.isLt (show cfg0.N = 50 from N_0)

theorem colsq_gi (c : Dev nD) (t : Fin cfg0.N) (e : Fin 512) :
    colsq (iblk m c 0 t) (iblk m c 2 t) (iblk m c 5 t) e = ∑ r ∈ Finset.range 1000, Spec.sq (GI m c) (1000 * t.val + r) e :=
  colsq_of_tile _ _ _ _ t.val (tlt t) e fun r n hn => tile_gi m c t r e n hn
theorem colsq_gp (c : Dev nD) (t : Fin cfg0.N) (e : Fin 512) :
    colsq (iblk m c 1 t) (iblk m c 3 t) (iblk m c 6 t) e = ∑ r ∈ Finset.range 1000, Spec.sq (GP m c) (1000 * t.val + r) e :=
  colsq_of_tile _ _ _ _ t.val (tlt t) e fun r n hn => tile_gp m c t r e n hn
theorem colsq_gs (c : Dev nD) (t : Fin cfg0.N) (e : Fin 512) :
    colsq (meanL (iblk m c 0 t) (iblk m c 1 t)) (iblk m c 4 t) (iblk m c 7 t) e = ∑ r ∈ Finset.range 1000, Spec.sq (GS m c) (1000 * t.val + r) e :=
  colsq_of_tile _ _ _ _ t.val (tlt t) e fun r n hn => tile_gs m c t r e n hn

/-- What an accumulator holds after point `n`. -/
def accS (a : Spec.Rows.Idx → EReal) (n : ℕ) : S8x512.Idx → EReal := fun y =>
  if (y (0 : Fin 2)).val = 0 then ∑ p ∈ Finset.range (1000 * (n % 25 + 1)), Spec.sq a (25000 * (n / 25) + p) (y (1 : Fin 2)) else 0

theorem accS_row0 (a : Spec.Rows.Idx → EReal) (n : ℕ) (e : Fin 512) :
    accS a n (ix2 (0 : Fin 8) e) = ∑ p ∈ Finset.range (1000 * (n % 25 + 1)), Spec.sq a (25000 * (n / 25) + p) e := by
  unfold accS
  exact if_pos rfl

theorem accS_ix (a : Spec.Rows.Idx → EReal) (n : ℕ) (p : Fin 8) (e : Fin 512) :
    accS a n (ix2 p e) = if p.val = 0 then ∑ q ∈ Finset.range (1000 * (n % 25 + 1)), Spec.sq a (25000 * (n / 25) + q) e else 0 := rfl

/-- A reset point: the accumulator holds the point's own tile. -/
theorem accS_first (a : Spec.Rows.Idx → EReal) (n : ℕ) (h0 : n % 25 = 0) (col : Fin 512 → EReal)
    (hcol : ∀ e, col e = ∑ r ∈ Finset.range 1000, Spec.sq a (1000 * n + r) e) (p : Fin 8) (e : Fin 512) :
    (if p.val = 0 then col e else 0) = accS a n (ix2 p e) := by
  rw [accS_ix]
  by_cases h : p.val = 0
  · rw [if_pos h, if_pos h, hcol]
    have e1 : 1000 * (n % 25 + 1) = 1000 := by omega
    rw [e1]
    refine Finset.sum_congr rfl fun q _ => ?_
    have e2 : 1000 * n + q = 25000 * (n / 25) + q := by omega
    rw [e2]
  · rw [if_neg h, if_neg h]

/-- A later point: row 0 grows by the point's tile, the other rows stay zero. -/
theorem accS_next (a : Spec.Rows.Idx → EReal) (n : ℕ) (h0 : ¬n % 25 = 0) (col : Fin 512 → EReal)
    (hcol : ∀ e, col e = ∑ r ∈ Finset.range 1000, Spec.sq a (1000 * n + r) e)
    (prev : S8x512.Idx → EReal) (hprev : prev = accS a (n - 1)) (p : Fin 8) (e : Fin 512) :
    (if p.val = 0 then prev (ix2 (0 : Fin 8) e) + col e else prev (ix2 p e)) = accS a n (ix2 p e) := by
  subst hprev
  by_cases h : p.val = 0
  · rw [if_pos h, accS_row0, hcol, accS_ix, if_pos h]
    have e1 : 1000 * ((n - 1) % 25 + 1) = 1000 * (n % 25) := by omega
    have e2 : (n - 1) / 25 = n / 25 := by omega
    have e3 : 1000 * (n % 25 + 1) = 1000 * (n % 25) + 1000 := by omega
    rw [e1, e2, e3, Finset.sum_range_add]
    refine congrArg (_ + ·) (Finset.sum_congr rfl fun r _ => ?_)
    have e4 : 1000 * n + r = 25000 * (n / 25) + (1000 * (n % 25) + r) := by omega
    rw [e4]
  · rw [if_neg h, accS_ix, accS_ix, if_neg h, if_neg h]

/-- The three accumulators after point `n`. -/
def Inv (c : Dev nD) (n : ℕ) (h : n < cfg0.N) : Prop :=
  (outsAt0 m c n h).2.1 = accS (GI m c) n ∧ (outsAt0 m c n h).2.2.1 = accS (GP m c) n ∧ (outsAt0 m c n h).2.2.2 = accS (GS m c) n

theorem stepA (c : Dev nD) (t : Fin cfg0.N) (h0 : t.val % 25 = 0) : Inv m c t.val t.isLt := by
  unfold Inv
  rw [outsAt0_A m c t h0]
  dsimp only
  refine ⟨funext fun y => ?_, funext fun y => ?_, funext fun y => ?_⟩
  · obtain ⟨p, e, rfl⟩ : ∃ (p : Fin 8) (e : Fin 512), y = ix2 p e := ⟨y 0, y 1, eq_ix2 y⟩
    exact (outA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (ix2 p e)).trans (accS_first (GI m c) t.val h0 _ (colsq_gi m c t) p e)
  · obtain ⟨p, e, rfl⟩ : ∃ (p : Fin 8) (e : Fin 512), y = ix2 p e := ⟨y 0, y 1, eq_ix2 y⟩
    exact (outA10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (ix2 p e)).trans (accS_first (GP m c) t.val h0 _ (colsq_gp m c t) p e)
  · obtain ⟨p, e, rfl⟩ : ∃ (p : Fin 8) (e : Fin 512), y = ix2 p e := ⟨y 0, y 1, eq_ix2 y⟩
    exact (outA11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (ix2 p e)).trans (accS_first (GS m c) t.val h0 _ (colsq_gs m c t) p e)

theorem stepB (c : Dev nD) (t : Fin cfg0.N) (h0 : ¬t.val % 25 = 0)
    (ih : Inv m c (t.val - 1) (Nat.lt_of_le_of_lt (Nat.sub_le _ _) t.isLt)) : Inv m c t.val t.isLt := by
  unfold Inv at ih ⊢
  rw [outsAt0_B m c t h0]
  dsimp only
  refine ⟨funext fun y => ?_, funext fun y => ?_, funext fun y => ?_⟩
  · obtain ⟨p, e, rfl⟩ : ∃ (p : Fin 8) (e : Fin 512), y = ix2 p e := ⟨y 0, y 1, eq_ix2 y⟩
    exact (outB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 p e)).trans (accS_next (GI m c) t.val h0 _ (colsq_gi m c t) _ ih.1 p e)
  · obtain ⟨p, e, rfl⟩ : ∃ (p : Fin 8) (e : Fin 512), y = ix2 p e := ⟨y 0, y 1, eq_ix2 y⟩
    exact (outB10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 p e)).trans (accS_next (GP m c) t.val h0 _ (colsq_gp m c t) _ ih.2.1 p e)
  · obtain ⟨p, e, rfl⟩ : ∃ (p : Fin 8) (e : Fin 512), y = ix2 p e := ⟨y 0, y 1, eq_ix2 y⟩
    exact (outB11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 p e)).trans (accS_next (GS m c) t.val h0 _ (colsq_gs m c t) _ ih.2.2 p e)

/-- By induction on the point. -/
theorem inv (c : Dev nD) : ∀ (n : ℕ) (h : n < cfg0.N), Inv m c n h
  | 0, h => stepA m c ⟨0, h⟩ rfl
  | n + 1, h => by
    by_cases h0 : (n + 1) % 25 = 0
    · exact stepA m c ⟨n + 1, h⟩ h0
    · exact stepB m c ⟨n + 1, h⟩ h0 (inv c n (Nat.lt_of_succ_lt h))

/-- The joint tile at every point. -/
theorem joint_tile (c : Dev nD) (t : Fin cfg0.N) :
    (outsAt0 m c t.val t.isLt).1 = jointL (iblk m c 0 t) (iblk m c 1 t) (iblk m c 2 t) (iblk m c 3 t) (iblk m c 4 t) (iblk m c 5 t) (iblk m c 6 t) (iblk m c 7 t) := by
  by_cases h0 : t.val % 25 = 0
  · rw [outsAt0_A m c t h0]
    dsimp only
    exact (outA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t)).trans (pay4_joint _ _ _ _ _ _ _ _)
  · rw [outsAt0_B m c t h0]
    dsimp only
    exact (outB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans (pay4_joint _ _ _ _ _ _ _ _)

end Cert.KernelIdeal.Acc

end
-- ==== Proof.Arrays.lean ====
/-
  The kernel's four output arrays after the run, as functions of the argument arrays.

  The joint embedding is written back tile by tile, every point its own 1000 rows, so the array ends as the joint
  embedding of the whole arrays. Each accumulator is written back twice, after the last point of each half, into rows
  0–7 and 8–15 of its [16, 512] array: the array ends as the partial sums of the squared gate.
-/
import proofs.«111152_j35055523070192_2_alg».proof.Proof.Accum
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Body Cert.KernelIdeal.Pieces Cert.KernelIdeal.Blocks Cert.KernelIdeal.Acc

variable (m : (ℓ : Loc nD τ sig) → Buf (Elt Ideal) ℓ)

theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val / 25 ∧ win0_9.index t (1 : Fin 2) = 0 :=
  (by decide +kernel : ∀ t : Fin grid0.N, _)
theorem idx10 : ∀ t : Fin cfg0.N, win0_10.index t (0 : Fin 2) = t.val / 25 ∧ win0_10.index t (1 : Fin 2) = 0 :=
  (by decide +kernel : ∀ t : Fin grid0.N, _)
theorem idx11 : ∀ t : Fin cfg0.N, win0_11.index t (0 : Fin 2) = t.val / 25 ∧ win0_11.index t (1 : Fin 2) = 0 :=
  (by decide +kernel : ∀ t : Fin grid0.N, _)

theorem partials_ix (a : Spec.Rows.Idx → EReal) (r : Fin 16) (d : Fin 512) :
    Spec.partials a (ix2 r d) = if r.val % 8 = 0 then ∑ q ∈ Finset.range 25000, Spec.sq a (25000 * (r.val / 8) + q) d else 0 := rfl

/-- The joint embedding of the whole arrays. -/
def JOINT (c : Dev nD) : Spec.Rows.Idx → EReal := Spec.joint (GS m c) (SH m c) (GI m c) (IMG m c) (GP m c) (PH m c)

/-- The joint tile at point `t`, entry `(r, e)`, is the joint embedding at row `1000 · t + r`. -/
theorem joint_at (c : Dev nD) (t : Fin cfg0.N) (r : Fin 1000) (e : Fin 512) (n : Fin 50000) (hn : n.val = 1000 * t.val + r.val) :
    jointL (iblk m c 0 t) (iblk m c 1 t) (iblk m c 2 t) (iblk m c 3 t) (iblk m c 4 t) (iblk m c 5 t) (iblk m c 6 t) (iblk m c 7 t) (ix2 r e)
      = JOINT m c (ix2 n e) := by
  unfold jointL JOINT Spec.joint
  exact congrArg₂ (· + ·) (congrArg₂ (· + ·)
      (congrArg₂ (· * ·) (tile_gs m c t r e n hn) (tile_sh m c t r e n hn))
      (congrArg₂ (· * ·) (tile_gi m c t r e n hn) (blk0 m c t r e n hn)))
    (congrArg₂ (· * ·) (tile_gp m c t r e n hn) (blk1 m c t r e n hn))

/-- What point `t` writes back of the joint embedding is its block of the whole one. -/
theorem flushed8_eq (c : Dev nD) (t : Fin cfg0.N) :
    (dats m 0 c).flushed 8 t = ((cfg0.win 8).blk t).view.read (Elt Ideal) (JOINT m c) := by
  have hN := tlt t
  show (cfg0.win 8).cut (grid0.coords t) ((dats m 0 c).after 8 t) = _
  rw [after0_8, joint_tile]
  funext y
  obtain ⟨r, e, rfl⟩ : ∃ (r : Fin 1000) (e : Fin 512), y = ix2 r e := ⟨y 0, y 1, eq_ix2 y⟩
  show jointL (iblk m c 0 t) (iblk m c 1 t) (iblk m c 2 t) (iblk m c 3 t) (iblk m c 4 t) (iblk m c 5 t) (iblk m c 6 t) (iblk m c 7 t) (ix2 r e)
    = JOINT m c (((cfg0.win 8).blk t).view.emb (ix2 r e))
  have hlt : 1000 * t.val + r.val < 50000 := by have := r.isLt; omega
  have hemb : ((cfg0.win 8).blk t).view.emb (ix2 r e) = ix2 (⟨1000 * t.val + r.val, hlt⟩ : Fin 50000) e := funext fun a => Fin.ext (by
    match a with
    | ⟨0, _⟩ => show win0_8.index t 0 * 1000 + 1 * r.val = 1000 * t.val + r.val; rw [(idx8 t).1]; omega
    | ⟨1, _⟩ => show win0_8.index t 1 * 512 + 1 * e.val = e.val; rw [(idx8 t).2]; omega)
  exact (joint_at m c t r e ⟨_, hlt⟩ rfl).trans (congrArg (JOINT m c) hemb.symm)

theorem mem_blk8 (t : Fin cfg0.N) (i : S50000x512.Idx) :
    i ∈ ((cfg0.win 8).blk t).view.set ↔ ∀ a : Fin 2, win0_8.index t a * S1000x512.size a ≤ (i a).val ∧ (i a).val < win0_8.index t a * S1000x512.size a + S1000x512.size a := by
  show i ∈ ((View.whole main_v9_0).slice (win0_8.rect t)).set ↔ _
  rw [View.set_slice_whole, Rect.mem_set_unit]
  exact Iff.rfl

/-- Row `n` of the joint embedding is written by point `n / 1000`. -/
theorem cover8 (i : S50000x512.Idx) : ∃ t : Fin cfg0.N, (cfg0.win 8).flush t = true ∧ i ∈ ((cfg0.win 8).blk t).view.set := by
  have hi0 : (i (0 : Fin 2)).val < 50000 := (i (0 : Fin 2)).isLt
  have hi1 : (i (1 : Fin 2)).val < 512 := (i (1 : Fin 2)).isLt
  have hN : cfg0.N = 50 := N_0
  refine ⟨⟨(i (0 : Fin 2)).val / 1000, by rw [hN]; omega⟩, flush0_8 _, ?_⟩
  rw [mem_blk8]
  intro a
  match a with
  | ⟨0, _⟩ =>
    show win0_8.index _ 0 * 1000 ≤ (i (0 : Fin 2)).val ∧ (i (0 : Fin 2)).val < win0_8.index _ 0 * 1000 + 1000
    rw [(idx8 _).1]
    show (i (0 : Fin 2)).val / 1000 * 1000 ≤ (i (0 : Fin 2)).val ∧ (i (0 : Fin 2)).val < (i (0 : Fin 2)).val / 1000 * 1000 + 1000
    omega
  | ⟨1, _⟩ =>
    show win0_8.index _ 1 * 512 ≤ (i (1 : Fin 2)).val ∧ (i (1 : Fin 2)).val < win0_8.index _ 1 * 512 + 512
    rw [(idx8 _).2]
    omega

/-- The joint embedding's array after the run. -/
theorem final8 (c : Dev nD) : (dats m 0 c).arrAt 8 cfg0.N = JOINT m c :=
  (dats m 0 c).arrAt_eq_of_cover 8 (JOINT m c) (fun t _ => flushed8_eq m c t) cover8

/-- What the write-back of accumulator 9 at the last point of a half writes is its block of the partial-sum array. -/
theorem flushed9_eq (c : Dev nD) (t : Fin cfg0.N) (hf : (cfg0.win 9).flush t = true) :
    (dats m 0 c).flushed 9 t = ((cfg0.win 9).blk t).view.read (Elt Ideal) (Spec.partials (GI m c)) := by
  have h24 : t.val % 25 = 24 := (flush0_9 t).mp hf
  have hN := tlt t
  show (cfg0.win 9).cut (grid0.coords t) ((dats m 0 c).after 9 t) = _
  rw [after0_9, (inv m c t.val t.isLt).1]
  funext y
  obtain ⟨p, e, rfl⟩ : ∃ (p : Fin 8) (e : Fin 512), y = ix2 p e := ⟨y 0, y 1, eq_ix2 y⟩
  show accS (GI m c) t.val (ix2 p e) = Spec.partials (GI m c) (((cfg0.win 9).blk t).view.emb (ix2 p e))
  have hp : p.val < 8 := p.isLt
  have hlt : 8 * (t.val / 25) + p.val < 16 := by omega
  have hemb : ((cfg0.win 9).blk t).view.emb (ix2 p e) = ix2 (⟨8 * (t.val / 25) + p.val, hlt⟩ : Fin 16) e := funext fun a => Fin.ext (by
    match a with
    | ⟨0, _⟩ => show win0_9.index t 0 * 8 + 1 * p.val = 8 * (t.val / 25) + p.val; rw [(idx9 t).1]; omega
    | ⟨1, _⟩ => show win0_9.index t 1 * 512 + 1 * e.val = e.val; rw [(idx9 t).2]; omega)
  refine Eq.trans ?_ (congrArg (Spec.partials (GI m c)) hemb.symm)
  rw [accS_ix, partials_ix]
  show (if p.val = 0 then _ else 0) = if (8 * (t.val / 25) + p.val) % 8 = 0 then ∑ q ∈ Finset.range 25000, Spec.sq (GI m c) (25000 * ((8 * (t.val / 25) + p.val) / 8) + q) e else 0
  by_cases h : p.val = 0
  · have e1 : 1000 * (t.val % 25 + 1) = 25000 := by omega
    have e2 : (8 * (t.val / 25) + p.val) / 8 = t.val / 25 := by omega
    rw [if_pos h, if_pos (by omega), e1, e2]
  · rw [if_neg h, if_neg (by omega)]

theorem mem_blk9 (t : Fin cfg0.N) (i : S16x512.Idx) :
    i ∈ ((cfg0.win 9).blk t).view.set ↔ ∀ a : Fin 2, win0_9.index t a * S8x512.size a ≤ (i a).val ∧ (i a).val < win0_9.index t a * S8x512.size a + S8x512.size a := by
  show i ∈ ((View.whole main_v9_1).slice (win0_9.rect t)).set ↔ _
  rw [View.set_slice_whole, Rect.mem_set_unit]
  exact Iff.rfl

/-- The two write-backs (points 24 and 49) cover the partial-sum array. -/
theorem cover9 (i : S16x512.Idx) : ∃ t : Fin cfg0.N, (cfg0.win 9).flush t = true ∧ i ∈ ((cfg0.win 9).blk t).view.set := by
  have hi0 : (i (0 : Fin 2)).val < 16 := (i (0 : Fin 2)).isLt
  have hi1 : (i (1 : Fin 2)).val < 512 := (i (1 : Fin 2)).isLt
  have hN : cfg0.N = 50 := N_0
  refine ⟨⟨25 * ((i (0 : Fin 2)).val / 8) + 24, by rw [hN]; omega⟩, (flush0_9 _).mpr (by show (25 * ((i (0 : Fin 2)).val / 8) + 24) % 25 = 24; omega), ?_⟩
  rw [mem_blk9]
  intro a
  match a with
  | ⟨0, _⟩ =>
    show win0_9.index _ 0 * 8 ≤ (i (0 : Fin 2)).val ∧ (i (0 : Fin 2)).val < win0_9.index _ 0 * 8 + 8
    rw [(idx9 _).1]
    show (25 * ((i (0 : Fin 2)).val / 8) + 24) / 25 * 8 ≤ (i (0 : Fin 2)).val ∧ (i (0 : Fin 2)).val < (25 * ((i (0 : Fin 2)).val / 8) + 24) / 25 * 8 + 8
    omega
  | ⟨1, _⟩ =>
    show win0_9.index _ 1 * 512 ≤ (i (1 : Fin 2)).val ∧ (i (1 : Fin 2)).val < win0_9.index _ 1 * 512 + 512
    rw [(idx9 _).2]
    omega

/-- Accumulator 9's array after the run. -/
theorem final9 (c : Dev nD) : (dats m 0 c).arrAt 9 cfg0.N = Spec.partials (GI m c) :=
  (dats m 0 c).arrAt_eq_of_cover 9 (Spec.partials (GI m c)) (flushed9_eq m c) cover9

/-- What the write-back of accumulator 10 at the last point of a half writes is its block of the partial-sum array. -/
theorem flushed10_eq (c : Dev nD) (t : Fin cfg0.N) (hf : (cfg0.win 10).flush t = true) :
    (dats m 0 c).flushed 10 t = ((cfg0.win 10).blk t).view.read (Elt Ideal) (Spec.partials (GP m c)) := by
  have h24 : t.val % 25 = 24 := (flush0_10 t).mp hf
  have hN := tlt t
  show (cfg0.win 10).cut (grid0.coords t) ((dats m 0 c).after 10 t) = _
  rw [after0_10, (inv m c t.val t.isLt).2.1]
  funext y
  obtain ⟨p, e, rfl⟩ : ∃ (p : Fin 8) (e : Fin 512), y = ix2 p e := ⟨y 0, y 1, eq_ix2 y⟩
  show accS (GP m c) t.val (ix2 p e) = Spec.partials (GP m c) (((cfg0.win 10).blk t).view.emb (ix2 p e))
  have hp : p.val < 8 := p.isLt
  have hlt : 8 * (t.val / 25) + p.val < 16 := by omega
  have hemb : ((cfg0.win 10).blk t).view.emb (ix2 p e) = ix2 (⟨8 * (t.val / 25) + p.val, hlt⟩ : Fin 16) e := funext fun a => Fin.ext (by
    match a with
    | ⟨0, _⟩ => show win0_10.index t 0 * 8 + 1 * p.val = 8 * (t.val / 25) + p.val; rw [(idx10 t).1]; omega
    | ⟨1, _⟩ => show win0_10.index t 1 * 512 + 1 * e.val = e.val; rw [(idx10 t).2]; omega)
  refine Eq.trans ?_ (congrArg (Spec.partials (GP m c)) hemb.symm)
  rw [accS_ix, partials_ix]
  show (if p.val = 0 then _ else 0) = if (8 * (t.val / 25) + p.val) % 8 = 0 then ∑ q ∈ Finset.range 25000, Spec.sq (GP m c) (25000 * ((8 * (t.val / 25) + p.val) / 8) + q) e else 0
  by_cases h : p.val = 0
  · have e1 : 1000 * (t.val % 25 + 1) = 25000 := by omega
    have e2 : (8 * (t.val / 25) + p.val) / 8 = t.val / 25 := by omega
    rw [if_pos h, if_pos (by omega), e1, e2]
  · rw [if_neg h, if_neg (by omega)]

theorem mem_blk10 (t : Fin cfg0.N) (i : S16x512.Idx) :
    i ∈ ((cfg0.win 10).blk t).view.set ↔ ∀ a : Fin 2, win0_10.index t a * S8x512.size a ≤ (i a).val ∧ (i a).val < win0_10.index t a * S8x512.size a + S8x512.size a := by
  show i ∈ ((View.whole main_v9_2).slice (win0_10.rect t)).set ↔ _
  rw [View.set_slice_whole, Rect.mem_set_unit]
  exact Iff.rfl

/-- The two write-backs (points 24 and 49) cover the partial-sum array. -/
theorem cover10 (i : S16x512.Idx) : ∃ t : Fin cfg0.N, (cfg0.win 10).flush t = true ∧ i ∈ ((cfg0.win 10).blk t).view.set := by
  have hi0 : (i (0 : Fin 2)).val < 16 := (i (0 : Fin 2)).isLt
  have hi1 : (i (1 : Fin 2)).val < 512 := (i (1 : Fin 2)).isLt
  have hN : cfg0.N = 50 := N_0
  refine ⟨⟨25 * ((i (0 : Fin 2)).val / 8) + 24, by rw [hN]; omega⟩, (flush0_10 _).mpr (by show (25 * ((i (0 : Fin 2)).val / 8) + 24) % 25 = 24; omega), ?_⟩
  rw [mem_blk10]
  intro a
  match a with
  | ⟨0, _⟩ =>
    show win0_10.index _ 0 * 8 ≤ (i (0 : Fin 2)).val ∧ (i (0 : Fin 2)).val < win0_10.index _ 0 * 8 + 8
    rw [(idx10 _).1]
    show (25 * ((i (0 : Fin 2)).val / 8) + 24) / 25 * 8 ≤ (i (0 : Fin 2)).val ∧ (i (0 : Fin 2)).val < (25 * ((i (0 : Fin 2)).val / 8) + 24) / 25 * 8 + 8
    omega
  | ⟨1, _⟩ =>
    show win0_10.index _ 1 * 512 ≤ (i (1 : Fin 2)).val ∧ (i (1 : Fin 2)).val < win0_10.index _ 1 * 512 + 512
    rw [(idx10 _).2]
    omega

/-- Accumulator 10's array after the run. -/
theorem final10 (c : Dev nD) : (dats m 0 c).arrAt 10 cfg0.N = Spec.partials (GP m c) :=
  (dats m 0 c).arrAt_eq_of_cover 10 (Spec.partials (GP m c)) (flushed10_eq m c) cover10

/-- What the write-back of accumulator 11 at the last point of a half writes is its block of the partial-sum array. -/
theorem flushed11_eq (c : Dev nD) (t : Fin cfg0.N) (hf : (cfg0.win 11).flush t = true) :
    (dats m 0 c).flushed 11 t = ((cfg0.win 11).blk t).view.read (Elt Ideal) (Spec.partials (GS m c)) := by
  have h24 : t.val % 25 = 24 := (flush0_11 t).mp hf
  have hN := tlt t
  show (cfg0.win 11).cut (grid0.coords t) ((dats m 0 c).after 11 t) = _
  rw [after0_11, (inv m c t.val t.isLt).2.2]
  funext y
  obtain ⟨p, e, rfl⟩ : ∃ (p : Fin 8) (e : Fin 512), y = ix2 p e := ⟨y 0, y 1, eq_ix2 y⟩
  show accS (GS m c) t.val (ix2 p e) = Spec.partials (GS m c) (((cfg0.win 11).blk t).view.emb (ix2 p e))
  have hp : p.val < 8 := p.isLt
  have hlt : 8 * (t.val / 25) + p.val < 16 := by omega
  have hemb : ((cfg0.win 11).blk t).view.emb (ix2 p e) = ix2 (⟨8 * (t.val / 25) + p.val, hlt⟩ : Fin 16) e := funext fun a => Fin.ext (by
    match a with
    | ⟨0, _⟩ => show win0_11.index t 0 * 8 + 1 * p.val = 8 * (t.val / 25) + p.val; rw [(idx11 t).1]; omega
    | ⟨1, _⟩ => show win0_11.index t 1 * 512 + 1 * e.val = e.val; rw [(idx11 t).2]; omega)
  refine Eq.trans ?_ (congrArg (Spec.partials (GS m c)) hemb.symm)
  rw [accS_ix, partials_ix]
  show (if p.val = 0 then _ else 0) = if (8 * (t.val / 25) + p.val) % 8 = 0 then ∑ q ∈ Finset.range 25000, Spec.sq (GS m c) (25000 * ((8 * (t.val / 25) + p.val) / 8) + q) e else 0
  by_cases h : p.val = 0
  · have e1 : 1000 * (t.val % 25 + 1) = 25000 := by omega
    have e2 : (8 * (t.val / 25) + p.val) / 8 = t.val / 25 := by omega
    rw [if_pos h, if_pos (by omega), e1, e2]
  · rw [if_neg h, if_neg (by omega)]

theorem mem_blk11 (t : Fin cfg0.N) (i : S16x512.Idx) :
    i ∈ ((cfg0.win 11).blk t).view.set ↔ ∀ a : Fin 2, win0_11.index t a * S8x512.size a ≤ (i a).val ∧ (i a).val < win0_11.index t a * S8x512.size a + S8x512.size a := by
  show i ∈ ((View.whole main_v9_3).slice (win0_11.rect t)).set ↔ _
  rw [View.set_slice_whole, Rect.mem_set_unit]
  exact Iff.rfl

/-- The two write-backs (points 24 and 49) cover the partial-sum array. -/
theorem cover11 (i : S16x512.Idx) : ∃ t : Fin cfg0.N, (cfg0.win 11).flush t = true ∧ i ∈ ((cfg0.win 11).blk t).view.set := by
  have hi0 : (i (0 : Fin 2)).val < 16 := (i (0 : Fin 2)).isLt
  have hi1 : (i (1 : Fin 2)).val < 512 := (i (1 : Fin 2)).isLt
  have hN : cfg0.N = 50 := N_0
  refine ⟨⟨25 * ((i (0 : Fin 2)).val / 8) + 24, by rw [hN]; omega⟩, (flush0_11 _).mpr (by show (25 * ((i (0 : Fin 2)).val / 8) + 24) % 25 = 24; omega), ?_⟩
  rw [mem_blk11]
  intro a
  match a with
  | ⟨0, _⟩ =>
    show win0_11.index _ 0 * 8 ≤ (i (0 : Fin 2)).val ∧ (i (0 : Fin 2)).val < win0_11.index _ 0 * 8 + 8
    rw [(idx11 _).1]
    show (25 * ((i (0 : Fin 2)).val / 8) + 24) / 25 * 8 ≤ (i (0 : Fin 2)).val ∧ (i (0 : Fin 2)).val < (25 * ((i (0 : Fin 2)).val / 8) + 24) / 25 * 8 + 8
    omega
  | ⟨1, _⟩ =>
    show win0_11.index _ 1 * 512 ≤ (i (1 : Fin 2)).val ∧ (i (1 : Fin 2)).val < win0_11.index _ 1 * 512 + 512
    rw [(idx11 _).2]
    omega

/-- Accumulator 11's array after the run. -/
theorem final11 (c : Dev nD) : (dats m 0 c).arrAt 11 cfg0.N = Spec.partials (GS m c) :=
  (dats m 0 c).arrAt_eq_of_cover 11 (Spec.partials (GS m c)) (flushed11_eq m c) cover11

end Cert.KernelIdeal.Arrays

end
-- ==== Proof.KernelRun.lean ====
/-
  The scores' tail, and the kernel's run read at its three results.

  After the region both programs do the same thing with three totals: divide the two embeddings' totals by the shared
  one and take the softmax of the pair (shift by the maximum, exponentiate, divide by the sum). That tail is one function
  of the three totals here, so that equal totals give equal weights without opening it.
-/
import proofs.«111152_j35055523070192_2_alg».proof.Proof.Arrays
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Run

open Cert.KernelIdeal Cert.KernelIdeal.Gen Cert.KernelIdeal.Acc Cert.KernelIdeal.Arrays

abbrev Sc : Type := (⟨S_, .f32⟩ : BufTy).Contents (Elt Ideal)
abbrev V1 : Type := (⟨S1, .f32⟩ : BufTy).Contents (Elt Ideal)
abbrev V2 : Type := (⟨S2, .f32⟩ : BufTy).Contents (Elt Ideal)
abbrev P16 : Type := (⟨S16x512, .f32⟩ : BufTy).Contents (Elt Ideal)

/-- The total of a partial-sum array. -/
def total (A : P16) : Sc := Host.reduceAdd (F := Ideal) A (constant (F := Ideal) S_ .f32 0x00000000#32) reducesTo_S16x512_S_d0_1 h_S_

/-- Two scalars side by side. -/
def cat2 (a b : Sc) : V2 :=
  concatenate S2 0 [⟨S1, (broadcastInDim S1 ![] bcast_S_S1 a : V1)⟩, ⟨S1, (broadcastInDim S1 ![] bcast_S_S1 b : V1)⟩] concatenates_S1_S1_S2_d0
/-- A scalar repeated twice. -/
def spread (s : Sc) : V2 := broadcastInDim S2 ![0] bcast_S1_S2_0 (broadcastInDim S1 ![] bcast_S_S1 s : V1)
/-- The pair shifted by its maximum and exponentiated. -/
def expShift (v : V2) : V2 :=
  Host.exp (F := Ideal) (φ := .f32) (subf (F := Ideal) (φ := .f32) v (spread (maximumf (constant (F := Ideal) S_ .f32 0xFF800000#32)
    (Host.reduce FloatOps.maximumf v (constant (F := Ideal) S_ .f32 0xFF800000#32) reducesTo_S2_S_d0 h_S_))))
/-- The pair divided by its sum. -/
def norm2 (x : V2) : V2 :=
  Host.divf (F := Ideal) (φ := .f32) x (spread (Host.reduceAdd (F := Ideal) x (constant (F := Ideal) S_ .f32 0x00000000#32) reducesTo_S2_S_d0 h_S_))
/-- The two weights from the three totals (first embedding, shared, second embedding). -/
def weights (si ss sp : Sc) : V2 := norm2 (expShift (cat2 (Host.divf (F := Ideal) (φ := .f32) si ss) (Host.divf (F := Ideal) (φ := .f32) sp ss)))
/-- The first and the second weight. -/
def w0 (v : V2) : Sc := shapeCast S_ (extractStridedSlice S1 ![0] v slices_S2_S1_0 : V1) shapeCasts_S1_S_
def w1 (v : V2) : Sc := shapeCast S_ (extractStridedSlice S1 ![1] v slices_S2_S1_1 : V1) shapeCasts_S1_S_

variable (m : (ℓ : Loc nD τ sig) → Buf (Elt Ideal) ℓ) (ρ : Dev nD → PrngReg)

/-- The arrays the host tail finds where the region left them. -/
theorem arr9 (c : Dev nD) : Pipeline.withArrays (cfgs 0).spec c (V0 m c) (fun w => (dats m 0 c).arrAt w (cfgs 0).N) (Proc.devRef .tc main_v9_1)
    = (dats m 0 c).arrAt 9 cfg0.N := Pipeline.withArrays_arr spec0 launch0.win.arr_inj c _ _ 9
theorem arr10 (c : Dev nD) : Pipeline.withArrays (cfgs 0).spec c (V0 m c) (fun w => (dats m 0 c).arrAt w (cfgs 0).N) (Proc.devRef .tc main_v9_2)
    = (dats m 0 c).arrAt 10 cfg0.N := Pipeline.withArrays_arr spec0 launch0.win.arr_inj c _ _ 10
theorem arr11 (c : Dev nD) : Pipeline.withArrays (cfgs 0).spec c (V0 m c) (fun w => (dats m 0 c).arrAt w (cfgs 0).N) (Proc.devRef .tc main_v9_3)
    = (dats m 0 c).arrAt 11 cfg0.N := Pipeline.withArrays_arr spec0 launch0.win.arr_inj c _ _ 11

set_option maxHeartbeats 4000000 in
/-- The host tail from any contents of the three partial-sum arrays: the first weight. -/
theorem tail29_gen (Vb : Valuation τ sig (Elt Ideal)) : StableHlo.after hostOps1 Vb (Proc.devRef .tc main_v29)
    = w0 (weights (total (Vb (Proc.devRef .tc main_v9_1))) (total (Vb (Proc.devRef .tc main_v9_3))) (total (Vb (Proc.devRef .tc main_v9_2)))) := by
  after_results_simp <;> rfl

set_option maxHeartbeats 4000000 in
/-- The host tail from any contents of the three partial-sum arrays: the second weight. -/
theorem tail31_gen (Vb : Valuation τ sig (Elt Ideal)) : StableHlo.after hostOps1 Vb (Proc.devRef .tc main_v31)
    = w1 (weights (total (Vb (Proc.devRef .tc main_v9_1))) (total (Vb (Proc.devRef .tc main_v9_3))) (total (Vb (Proc.devRef .tc main_v9_2)))) := by
  after_results_simp <;> rfl

/-- The first weight the kernel returns. -/
theorem tail29 (c : Dev nD) : Pipeline.afterTail₀ cfgs (dats m) 0 (V0 m) [hostOps1] c main_v29
    = w0 (weights (total ((dats m 0 c).arrAt 9 cfg0.N)) (total ((dats m 0 c).arrAt 11 cfg0.N)) (total ((dats m 0 c).arrAt 10 cfg0.N))) := by
  unfold Pipeline.afterTail₀
  show StableHlo.after hostOps1 _ (Proc.devRef .tc main_v29) = _
  refine (tail29_gen _).trans ?_
  rw [arr9 m c, arr10 m c, arr11 m c]

/-- The second weight the kernel returns. -/
theorem tail31 (c : Dev nD) : Pipeline.afterTail₀ cfgs (dats m) 0 (V0 m) [hostOps1] c main_v31
    = w1 (weights (total ((dats m 0 c).arrAt 9 cfg0.N)) (total ((dats m 0 c).arrAt 11 cfg0.N)) (total ((dats m 0 c).arrAt 10 cfg0.N))) := by
  unfold Pipeline.afterTail₀
  show StableHlo.after hostOps1 _ (Proc.devRef .tc main_v31) = _
  refine (tail31_gen _).trans ?_
  rw [arr9 m c, arr10 m c, arr11 m c]

end Cert.KernelIdeal.Run

end
-- ==== Proof.KernelPost.lean ====
/-
  The kernel's run, read: the joint embedding's array is the joint embedding of the whole arrays; each accumulator's
  total is zero plus the sum of its gate's squares (the partial sums added up); the two weights are the tail of those
  three totals; the arguments end unchanged.
-/
import proofs.«111152_j35055523070192_2_alg».proof.Proof.KernelRun

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Acc Cert.KernelIdeal.Arrays

/-- The total of a matrix's squares, from zero. -/
def energy (a : Spec.Rows.Idx → EReal) : Sc := fun _ => Ideal.ofBits .f32 0x00000000#32 + ∑ i : Spec.Rows.Idx, a i * a i

/-- Adding up the partial sums from zero gives that total. -/
theorem total_partials (a : Spec.Rows.Idx → EReal) : total (Spec.partials a) = energy a := by
  funext i
  unfold total energy
  simp only [Host.reduceAdd, Ideal.hostReduceAdd_def]
  exact (Ideal.hostReduceAdd_total reducesTo_S16x512_S_d0_1 (fun b => b.elim0) (Spec.partials a) _ i).trans
    (congrArg (Ideal.ofBits .f32 0x00000000#32 + ·) (Spec.sum_partials a))

variable (m : (ℓ : Loc nD τ sig) → Buf (Elt Ideal) ℓ) (ρ : Dev nD → PrngReg)

/-- The two weights as the kernel computes them from the whole arrays. -/
def W (c : Dev nD) : V2 := weights (energy (GI m c)) (energy (GS m c)) (energy (GP m c))

theorem tail29' (c : Dev nD) : Pipeline.afterTail₀ cfgs (dats m) 0 (V0 m) [hostOps1] c main_v29 = w0 (W m c) := by
  rw [tail29, final9, final10, final11, total_partials, total_partials, total_partials]
  rfl
theorem tail31' (c : Dev nD) : Pipeline.afterTail₀ cfgs (dats m) 0 (V0 m) [hostOps1] c main_v31 = w1 (W m c) := by
  rw [tail31, final9, final10, final11, total_partials, total_partials, total_partials]
  rfl

/-- Every weakly fair execution of the kernel's program ends with the joint embedding, the two weights, and the arguments as launched. -/
theorem run : θ_run defs (onTc (τ := τ) (main (F := Ideal))) ⟨m, fun _ => 0, ρ⟩ fun r => ∀ c : Dev nD,
      r.2.mem ((c.tc : Thread nD τ).loc main_v9_0) = JOINT m c
      ∧ r.2.mem ((c.tc : Thread nD τ).loc main_v29) = w0 (W m c)
      ∧ r.2.mem ((c.tc : Thread nD τ).loc main_v31) = w1 (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (final8 m c),
      ((h c).2 main_v29 (Pipeline.mem_restRefs_of main_v29 (by decide) (by decide))).trans (tail29' m c),
      ((h c).2 main_v31 (Pipeline.mem_restRefs_of main_v31 (by decide) (by decide))).trans (tail31' m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Run

end
-- ==== Proof.RefValue.lean ====
/-
  The reference, stage by stage, is the same mathematics over the argument arrays: its three gates are
  `tanh (x · Wᵀ + b)` (a product contracted over the second axis of both operands, the bias repeated down the rows), its
  shared embedding is the mean, its result is the gated sum, and each of its three totals is zero plus the sum of a
  gate's squares over the whole matrix.
-/
import proofs.«111152_j35055523070192_2_alg».proof.Proof.Gen.ReferenceIdeal.Read
import proofs.«111152_j35055523070192_2_alg».proof.Proof.Spec

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

abbrev A2 : Type := (⟨S50000x512, .f32⟩ : BufTy).Contents (Elt Ideal)
abbrev W2 : Type := (⟨S512x512, .f32⟩ : BufTy).Contents (Elt Ideal)
abbrev B1 : Type := (⟨S512, .f32⟩ : BufTy).Contents (Elt Ideal)

/-- The constant one half. -/
def half : EReal := Ideal.ofBits .f32 0x3F000000#32

theorem lidx3 (i : S50000x512.Idx) (k : Fin 512) : lidx_main_v3 i k = ix2 (n0 := 50000) (n1 := 512) (i 0) k :=
  funext fun a => by match a with | ⟨0, _⟩ => rfl | ⟨1, _⟩ => rfl
theorem ridx3 (i : S50000x512.Idx) (k : Fin 512) : ridx_main_v3 i k = ix2 (n0 := 512) (n1 := 512) (i 1) k :=
  funext fun a => by match a with | ⟨0, _⟩ => rfl | ⟨1, _⟩ => rfl
theorem lidx8 (i : S50000x512.Idx) (k : Fin 512) : lidx_main_v8 i k = ix2 (n0 := 50000) (n1 := 512) (i 0) k :=
  funext fun a => by match a with | ⟨0, _⟩ => rfl | ⟨1, _⟩ => rfl
theorem ridx8 (i : S50000x512.Idx) (k : Fin 512) : ridx_main_v8 i k = ix2 (n0 := 512) (n1 := 512) (i 1) k :=
  funext fun a => by match a with | ⟨0, _⟩ => rfl | ⟨1, _⟩ => rfl
theorem lidx13 (i : S50000x512.Idx) (k : Fin 512) : lidx_main_v13 i k = ix2 (n0 := 50000) (n1 := 512) (i 0) k :=
  funext fun a => by match a with | ⟨0, _⟩ => rfl | ⟨1, _⟩ => rfl
theorem ridx13 (i : S50000x512.Idx) (k : Fin 512) : ridx_main_v13 i k = ix2 (n0 := 512) (n1 := 512) (i 1) k :=
  funext fun a => by match a with | ⟨0, _⟩ => rfl | ⟨1, _⟩ => rfl
theorem bidx5 (i : S50000x512.Idx) : idx_main_v4 (idx_main_v5 i) = ix1 (n := 512) (i 1) :=
  funext fun a => by match a with | ⟨0, _⟩ => rfl
theorem bidx10 (i : S50000x512.Idx) : idx_main_v9 (idx_main_v10 i) = ix1 (n := 512) (i 1) :=
  funext fun a => by match a with | ⟨0, _⟩ => rfl
theorem bidx15 (i : S50000x512.Idx) : idx_main_v14 (idx_main_v15 i) = ix1 (n := 512) (i 1) :=
  funext fun a => by match a with | ⟨0, _⟩ => rfl

/-- The reference's shared embedding is the mean. -/
theorem mean_eq (x0 x1 : A2) : val_main_v2 (F := Ideal) x0 x1 = Spec.mean2 half x0 x1 := by
  funext j
  rw [val_main_v2_apply, val_main_v1_apply, val_main_cst_apply, val_main_v0_apply]
  rfl

/-- The reference's first gate. -/
theorem gate_img (x0 : A2) (x4 : W2) (x5 : B1) : val_main_v7 (F := Ideal) x0 x4 x5 = Spec.gate x0 x4 x5 := by
  funext i
  rw [val_main_v7_apply, val_main_v6_apply, val_main_v3_apply, val_main_v5_apply, val_main_v4_apply]
  show Ideal.tanh ((∑ k : Fin 512, x0 (lidx_main_v3 i k) * x4 (ridx_main_v3 i k)) + x5 (idx_main_v4 (idx_main_v5 i))) = _
  exact congrArg Ideal.tanh (congrArg₂ (· + ·)
    (Finset.sum_congr rfl fun k _ => congrArg₂ (· * ·) (congrArg x0 (lidx3 i k)) (congrArg x4 (ridx3 i k))) (congrArg x5 (bidx5 i)))

/-- The reference's second gate. -/
theorem gate_ph (x1 : A2) (x6 : W2) (x7 : B1) : val_main_v12 (F := Ideal) x1 x6 x7 = Spec.gate x1 x6 x7 := by
  funext i
  rw [val_main_v12_apply, val_main_v11_apply, val_main_v8_apply, val_main_v10_apply, val_main_v9_apply]
  show Ideal.tanh ((∑ k : Fin 512, x1 (lidx_main_v8 i k) * x6 (ridx_main_v8 i k)) + x7 (idx_main_v9 (idx_main_v10 i))) = _
  exact congrArg Ideal.tanh (congrArg₂ (· + ·)
    (Finset.sum_congr rfl fun k _ => congrArg₂ (· * ·) (congrArg x1 (lidx8 i k)) (congrArg x6 (ridx8 i k))) (congrArg x7 (bidx10 i)))

/-- The reference's shared gate. -/
theorem gate_sh (x0 x1 : A2) (x2 : W2) (x3 : B1) : val_main_v17 (F := Ideal) x0 x1 x2 x3 = Spec.gate (Spec.mean2 half x0 x1) x2 x3 := by
  funext i
  rw [val_main_v17_apply, val_main_v16_apply, val_main_v13_apply, val_main_v15_apply, val_main_v14_apply, mean_eq]
  show Ideal.tanh ((∑ k : Fin 512, Spec.mean2 half x0 x1 (lidx_main_v13 i k) * x2 (ridx_main_v13 i k)) + x3 (idx_main_v14 (idx_main_v15 i))) = _
  exact congrArg Ideal.tanh (congrArg₂ (· + ·)
    (Finset.sum_congr rfl fun k _ => congrArg₂ (· * ·) (congrArg (Spec.mean2 half x0 x1) (lidx13 i k)) (congrArg x2 (ridx13 i k))) (congrArg x3 (bidx15 i)))

/-- The reference's result array is the joint embedding. -/
theorem joint_eq (x0 x1 : A2) (x2 : W2) (x3 : B1) (x4 : W2) (x5 : B1) (x6 : W2) (x7 : B1) :
    val_main_v43 (F := Ideal) x0 x1 x2 x3 x4 x5 x6 x7
      = Spec.joint (Spec.gate (Spec.mean2 half x0 x1) x2 x3) (Spec.mean2 half x0 x1) (Spec.gate x0 x4 x5) x0 (Spec.gate x1 x6 x7) x1 := by
  funext i
  rw [val_main_v43_apply, val_main_v41_apply, val_main_v39_apply, val_main_v40_apply, val_main_v42_apply, gate_sh, gate_img, gate_ph, mean_eq]
  rfl

/-- The total of a matrix's squares, from zero. -/
def energy (a : Spec.Rows.Idx → EReal) : (⟨S_, .f32⟩ : BufTy).Contents (Elt Ideal) :=
  fun _ => Ideal.ofBits .f32 0x00000000#32 + ∑ i : Spec.Rows.Idx, a i * a i

theorem energy_sh (x0 x1 : A2) (x2 : W2) (x3 : B1) : val_main_v19 (F := Ideal) x0 x1 x2 x3 = energy (Spec.gate (Spec.mean2 half x0 x1) x2 x3) := by
  funext i
  rw [val_main_v19_apply]
  refine congrArg₂ (· + ·) rfl (Finset.sum_congr rfl fun j _ => ?_)
  rw [val_main_v18_apply, gate_sh]
  rfl
theorem energy_img (x0 : A2) (x4 : W2) (x5 : B1) : val_main_v21 (F := Ideal) x0 x4 x5 = energy (Spec.gate x0 x4 x5) := by
  funext i
  rw [val_main_v21_apply]
  refine congrArg₂ (· + ·) rfl (Finset.sum_congr rfl fun j _ => ?_)
  rw [val_main_v20_apply, gate_img]
  rfl
theorem energy_ph (x1 : A2) (x6 : W2) (x7 : B1) : val_main_v24 (F := Ideal) x1 x6 x7 = energy (Spec.gate x1 x6 x7) := by
  funext i
  rw [val_main_v24_apply]
  refine congrArg₂ (· + ·) rfl (Finset.sum_congr rfl fun j _ => ?_)
  rw [val_main_v23_apply, gate_ph]
  rfl

end Cert.ReferenceIdeal.RefValue

end
-- ==== Proof.Bridge.lean ====
/-
  The reference's two weights are the same tail of ITS three totals: after the totals, the two programs' texts are the same
  operations, so the reference's results are the tail applied to the reference's totals.
-/
import proofs.«111152_j35055523070192_2_alg».proof.Proof.KernelPost
import proofs.«111152_j35055523070192_2_alg».proof.Proof.RefValue

set_option maxRecDepth 16384

noncomputable section

open Idealize.ShloMosaic Idealize.ShloMosaic.TcCoe Idealize.SL.Sem

namespace Cert.Bridge

open Cert.ReferenceIdeal Cert.ReferenceIdeal.Gen Cert.ReferenceIdeal.Read Cert.ReferenceIdeal.RefValue

/-- The reference's first weight. -/
theorem ref_w0 (x0 x1 : A2) (x2 : W2) (x3 : B1) (x4 : W2) (x5 : B1) (x6 : W2) (x7 : B1) :
    val_main_v45 (F := Ideal) x0 x1 x2 x3 x4 x5 x6 x7
      = Cert.KernelIdeal.Run.w0 (Cert.KernelIdeal.Run.weights (val_main_v21 (F := Ideal) x0 x4 x5) (val_main_v19 (F := Ideal) x0 x1 x2 x3) (val_main_v24 (F := Ideal) x1 x6 x7)) := rfl

/-- The reference's second weight. -/
theorem ref_w1 (x0 x1 : A2) (x2 : W2) (x3 : B1) (x4 : W2) (x5 : B1) (x6 : W2) (x7 : B1) :
    val_main_v47 (F := Ideal) x0 x1 x2 x3 x4 x5 x6 x7
      = Cert.KernelIdeal.Run.w1 (Cert.KernelIdeal.Run.weights (val_main_v21 (F := Ideal) x0 x4 x5) (val_main_v19 (F := Ideal) x0 x1 x2 x3) (val_main_v24 (F := Ideal) x1 x6 x7)) := rfl

/-- The two programs' totals are one function of a gate. -/
theorem energy_eq (a : Spec.Rows.Idx → EReal) : RefValue.energy a = Cert.KernelIdeal.Run.energy a := rfl

end Cert.Bridge

end
-- ==== Proof.lean ====
/-
  Two programs compute a joint embedding and two mixing weights from two row embeddings (50000 rows of 512), three
  weight matrices and three bias vectors. Each embedding, and their mean, is gated by `tanh (x · Wᵀ + b)`; the joint
  embedding is the sum of the three gated embeddings; each weight is the softmax of the two embeddings' gate energies
  (the total of the squared gate) divided by the shared gate's energy.

  The reference computes all of this on whole arrays. The kernel walks the rows in 50 tiles of 1000: per tile it forms
  the three gates by matrix products against the transposed weights, writes the joint tile, and adds the tile's column
  sums of squared gates into three accumulators, one block per half of the rows; afterwards it adds each accumulator
  up and runs the same softmax tail.

  At the exact values the gates agree entry by entry (a matrix product into zero is the plain sum; a change of float
  format is the identity), so the joint embeddings agree; and each energy is a finite sum of extended reals taken in
  two different groupings, which agree because addition is commutative and associative. No finiteness of the inputs is
  needed. The ideal pass rewrote nothing, so the preservation claim is trivial.
-/
import proofs.«111152_j35055523070192_2_alg».proof.Defs
import proofs.«111152_j35055523070192_2_alg».proof.Proof.Gen.Kernel
import proofs.«111152_j35055523070192_2_alg».proof.Proof.Gen.Kernel.Skeleton
import proofs.«111152_j35055523070192_2_alg».proof.Proof.Gen.Kernel.Launch
import proofs.«111152_j35055523070192_2_alg».proof.Proof.Gen.Kernel.Points
import proofs.«111152_j35055523070192_2_alg».proof.Proof.Gen.Kernel.Frame
import proofs.«111152_j35055523070192_2_alg».proof.Proof.Gen.KernelIdeal
import proofs.«111152_j35055523070192_2_alg».proof.Proof.Gen.KernelIdeal.Skeleton
import proofs.«111152_j35055523070192_2_alg».proof.Proof.Gen.KernelIdeal.Launch
import proofs.«111152_j35055523070192_2_alg».proof.Proof.Gen.KernelIdeal.Points
import proofs.«111152_j35055523070192_2_alg».proof.Proof.Gen.KernelIdeal.Frame
import proofs.«111152_j35055523070192_2_alg».proof.Proof.Gen.ReferenceIdeal
import proofs.«111152_j35055523070192_2_alg».proof.Proof.Gen.ReferenceIdeal.Run
import proofs.«111152_j35055523070192_2_alg».proof.Proof.Gen.ReferenceIdeal.Read
import proofs.«111152_j35055523070192_2_alg».proof.Proof.Gen.Pre_finite_inputs
import proofs.«111152_j35055523070192_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From arguments that agree, both programs end with the joint embedding of the whole arrays and the two weights of the
    three gate energies: the kernel by its run read tile by tile, the reference by its run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Arrays.JOINT m c, fun c => Cert.KernelIdeal.Run.w0 (Cert.KernelIdeal.Run.W m c),
    fun c => Cert.KernelIdeal.Run.w1 (Cert.KernelIdeal.Run.W m c), Cert.KernelIdeal.Run.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2⟩
  · rw [Cert.ReferenceIdeal.Read.val_main_v43_eq, Cert.ReferenceIdeal.RefValue.joint_eq, a0, a1, a2, a3, a4, a5, a6, a7]
    rfl
  · rw [Cert.ReferenceIdeal.Read.val_main_v45_eq, Cert.Bridge.ref_w0, Cert.ReferenceIdeal.RefValue.energy_img,
      Cert.ReferenceIdeal.RefValue.energy_sh, Cert.ReferenceIdeal.RefValue.energy_ph, a0, a1, a2, a3, a4, a5, a6, a7]
    rfl
  · rw [Cert.ReferenceIdeal.Read.val_main_v47_eq, Cert.Bridge.ref_w1, Cert.ReferenceIdeal.RefValue.energy_img,
      Cert.ReferenceIdeal.RefValue.energy_sh, Cert.ReferenceIdeal.RefValue.energy_ph, a0, a1, a2, a3, a4, a5, a6, a7]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
